-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  main_v18

def fn {F : FTy → Type} [FloatOps F] (main_arg0 : FVec F S100000x128 .f32) (main_arg1 : IVec S2x1600000 32) (main_arg2 : FVec F S3x128x128 .f32) (main_arg3 : FVec F S3x128 .f32) (main_arg4 : FVec F S3x128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_v13 main_v16
-- ==== Kernel.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩

abbrev nBuf : Space → Nat
  | .hbm => 90
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S3x128x128, .f32⟩
  | .hbm, ⟨3, _⟩ => ⟨S3x128, .f32⟩
  | .hbm, ⟨4, _⟩ => ⟨S3x128x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S1x128x128, .f32⟩
  | .hbm, ⟨38, _⟩ => ⟨S128x128, .f32⟩
  | .hbm, ⟨39, _⟩ => ⟨S1x128, .f32⟩
  | .hbm, ⟨40, _⟩ => ⟨S128, .f32⟩
  | .hbm, ⟨41, _⟩ => ⟨S1x128x128, .f32⟩
  | .hbm, ⟨42, _⟩ => ⟨S128x128, .f32⟩
  | .hbm, ⟨43, _⟩ => ⟨S100000x128, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S1x128x128, .f32⟩
  | .hbm, ⟨61, _⟩ => ⟨S128x128, .f32⟩
  | .hbm, ⟨62, _⟩ => ⟨S1x128, .f32⟩
  | .hbm, ⟨63, _⟩ => ⟨S128, .f32⟩
  | .hbm, ⟨64, _⟩ => ⟨S1x128x128, .f32⟩
  | .hbm, ⟨65, _⟩ => ⟨S128x128, .f32⟩
  | .hbm, ⟨66, _⟩ => ⟨S100000x128, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1600000x128, .f32⟩
  | .hbm, ⟨76, _⟩ => ⟨S_, .f32⟩
  | .hbm, ⟨77, _⟩ => ⟨S100000x128, .f32⟩
  | .hbm, ⟨78, _⟩ => ⟨S1600000x1, .i32⟩
  | .hbm, ⟨79, _⟩ => ⟨S100000x128, .f32⟩
  | .hbm, ⟨80, _⟩ => ⟨S100000x1, .f32⟩
  | .hbm, ⟨81, _⟩ => ⟨S100000x128, .f32⟩
  | .hbm, ⟨82, _⟩ => ⟨S100000x128, .f32⟩
  | .hbm, ⟨83, _⟩ => ⟨S1x128x128, .f32⟩
  | .hbm, ⟨84, _⟩ => ⟨S128x128, .f32⟩
  | .hbm, ⟨85, _⟩ => ⟨S1x128, .f32⟩
  | .hbm, ⟨86, _⟩ => ⟨S128, .f32⟩
  | .hbm, ⟨87, _⟩ => ⟨S1x128x128, .f32⟩
  | .hbm, ⟨88, _⟩ => ⟨S128x128, .f32⟩
  | .hbm, ⟨89, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_5 : Ref sig .tc := ⟨.hbm, 44, rfl⟩
abbrev main_v32 : Ref sig .tc := ⟨.hbm, 45, rfl⟩
abbrev main_v33 : Ref sig .tc := ⟨.hbm, 46, rfl⟩
abbrev main_c_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c_8 : Ref sig .tc := ⟨.hbm, 67, rfl⟩
abbrev main_v52 : Ref sig .tc := ⟨.hbm, 68, rfl⟩
abbrev main_v53 : Ref sig .tc := ⟨.hbm, 69, rfl⟩
abbrev main_c_9 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_10 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v51) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v64) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v66) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v70) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v71) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S1x1600000 : Shape := ⟨2, ![1, 1600000]⟩
abbrev S1600000 : Shape := ⟨1, ![1600000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S2x1600000, .i32⟩
  | 2 => ⟨S3x128x128, .f32⟩
  | 3 => ⟨S3x128, .f32⟩
  | 4 => ⟨S3x128x128, .f32⟩
  | 5 => ⟨S1x1600000, .i32⟩
  | 6 => ⟨S1600000, .i32⟩
  | 7 => ⟨S1x1600000, .i32⟩
  | 8 => ⟨S1600000, .i32⟩
  | 9 => ⟨S1x128x128, .f32⟩
  | 10 => ⟨S128x128, .f32⟩
  | 11 => ⟨S1x128, .f32⟩
  | 12 => ⟨S128, .f32⟩
  | 13 => ⟨S1x128x128, .f32⟩
  | 14 => ⟨S128x128, .f32⟩
  | 15 => ⟨S_, .i32⟩
  | 16 => ⟨S1600000, .i32⟩
  | 17 => ⟨S1600000, .i1⟩
  | 18 => ⟨S_, .i32⟩
  | 19 => ⟨S1600000, .i32⟩
  | 20 => ⟨S1600000, .i32⟩
  | 21 => ⟨S1600000, .i32⟩
  | 22 => ⟨S1600000x1, .i32⟩
  | 23 => ⟨S1600000x128, .f32⟩
  | 24 => ⟨S_, .f32⟩
  | 25 => ⟨S100000x128, .f32⟩
  | 26 => ⟨S1600000x1, .i32⟩
  | 27 => ⟨S100000x128, .f32⟩
  | 28 => ⟨S_, .f32⟩
  | 29 => ⟨S1600000, .f32⟩
  | 30 => ⟨S_, .f32⟩
  | 31 => ⟨S100000, .f32⟩
  | 32 => ⟨S1600000x1, .i32⟩
  | 33 => ⟨S100000, .f32⟩
  | 34 => ⟨S_, .f32⟩
  | 35 => ⟨S100000, .f32⟩
  | 36 => ⟨S100000, .f32⟩
  | 37 => ⟨S100000x1, .f32⟩
  | 38 => ⟨S100000x128, .f32⟩
  | 39 => ⟨S100000x128, .f32⟩
  | 40 => ⟨S100000x128, .f32⟩
  | 41 => ⟨S1x128, .f32⟩
  | 42 => ⟨S100000x128, .f32⟩
  | 43 => ⟨S100000x128, .f32⟩
  | 44 => ⟨S100000x128, .f32⟩
  | 45 => ⟨S100000x128, .f32⟩
  | 46 => ⟨S100000x128, .f32⟩
  | 47 => ⟨S_, .f32⟩
  | 48 => ⟨S100000x128, .f32⟩
  | 49 => ⟨S100000x128, .f32⟩
  | 50 => ⟨S1x128x128, .f32⟩
  | 51 => ⟨S128x128, .f32⟩
  | 52 => ⟨S1x128, .f32⟩
  | 53 => ⟨S128, .f32⟩
  | 54 => ⟨S1x128x128, .f32⟩
  | 55 => ⟨S128x128, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x128, .f32⟩
  | 65 => ⟨S_, .f32⟩
  | 66 => ⟨S100000x128, .f32⟩
  | 67 => ⟨S1600000x1, .i32⟩
  | 68 => ⟨S100000x128, .f32⟩
  | 69 => ⟨S_, .f32⟩
  | 70 => ⟨S1600000, .f32⟩
  | 71 => ⟨S_, .f32⟩
  | 72 => ⟨S100000, .f32⟩
  | 73 => ⟨S1600000x1, .i32⟩
  | 74 => ⟨S100000, .f32⟩
  | 75 => ⟨S_, .f32⟩
  | 76 => ⟨S100000, .f32⟩
  | 77 => ⟨S100000, .f32⟩
  | 78 => ⟨S100000x1, .f32⟩
  | 79 => ⟨S100000x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S100000x128, .f32⟩
  | 86 => ⟨S100000x128, .f32⟩
  | 87 => ⟨S100000x128, .f32⟩
  | 88 => ⟨S_, .f32⟩
  | 89 => ⟨S100000x128, .f32⟩
  | 90 => ⟨S100000x128, .f32⟩
  | 91 => ⟨S1x128x128, .f32⟩
  | 92 => ⟨S128x128, .f32⟩
  | 93 => ⟨S1x128, .f32⟩
  | 94 => ⟨S128, .f32⟩
  | 95 => ⟨S1x128x128, .f32⟩
  | 96 => ⟨S128x128, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x128, .f32⟩
  | 106 => ⟨S_, .f32⟩
  | 107 => ⟨S100000x128, .f32⟩
  | 108 => ⟨S1600000x1, .i32⟩
  | 109 => ⟨S100000x128, .f32⟩
  | 110 => ⟨S_, .f32⟩
  | 111 => ⟨S1600000, .f32⟩
  | 112 => ⟨S_, .f32⟩
  | 113 => ⟨S100000, .f32⟩
  | 114 => ⟨S1600000x1, .i32⟩
  | 115 => ⟨S100000, .f32⟩
  | 116 => ⟨S_, .f32⟩
  | 117 => ⟨S100000, .f32⟩
  | 118 => ⟨S100000, .f32⟩
  | 119 => ⟨S100000x1, .f32⟩
  | 120 => ⟨S100000x128, .f32⟩
  | 121 => ⟨S100000x128, .f32⟩
  | 122 => ⟨S100000x128, .f32⟩
  | 123 => ⟨S1x128, .f32⟩
  | 124 => ⟨S100000x128, .f32⟩
  | 125 => ⟨S100000x128, .f32⟩
  | 126 => ⟨S100000x128, .f32⟩
  | 127 => ⟨S100000x128, .f32⟩
  | _ => ⟨S100000x128, .f32⟩

abbrev hbmTy0_1 (i : Nat) : BufTy := match i % 128 with
  | 0 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call0_cst : Ref sig .tc := ⟨.hbm, 47, rfl⟩
abbrev main_call0_v0 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_4 : Ref sig .tc := ⟨.hbm, 56, rfl⟩
abbrev main_v43 : Ref sig .tc := ⟨.hbm, 57, rfl⟩
abbrev main_v44 : Ref sig .tc := ⟨.hbm, 58, rfl⟩
abbrev main_c_5 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_6 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_7 : Ref sig .tc := ⟨.hbm, 69, rfl⟩
abbrev main_v53 : Ref sig .tc := ⟨.hbm, 70, rfl⟩
abbrev main_cst_8 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_9 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_call1_cst : Ref sig .tc := ⟨.hbm, 88, rfl⟩
abbrev main_call1_v0 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_c_10 : Ref sig .tc := ⟨.hbm, 97, rfl⟩
abbrev main_v76 : Ref sig .tc := ⟨.hbm, 98, rfl⟩
abbrev main_v77 : Ref sig .tc := ⟨.hbm, 99, rfl⟩
abbrev main_c_11 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_12 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_13 : Ref sig .tc := ⟨.hbm, 110, rfl⟩
abbrev main_v86 : Ref sig .tc := ⟨.hbm, 111, rfl⟩
abbrev main_cst_14 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_15 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRun.lean ====
/-
  The idealized kernel's run, with its result named.

  The program is three grid launches among stretches of host operations. Its generated frame certificate folds the
  buffer contents through the six segments: each host stretch applies its operations, each launch leaves its arrays
  at what the write-backs of its twenty grid points leave and every other buffer as entered. The last fold is the
  contents every buffer that outlives the launches ends with. The frame certificate reads the five argument arrays off that
  last fold; read here, beside them, is the result array: every weakly fair execution terminates with the
  result at the last fold's contents of the result buffer.
-/
import proofs.«127879_j87591563034885_1_alg».proof.Proof.Gen.KernelIdeal.Frame

set_option maxRecDepth 16384

noncomputable section

namespace Cert.KernelIdeal.KValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution terminates, nothing faulting, with the result array at the last fold's contents of the
    result buffer and the five argument arrays as launched. -/
theorem run_result : θ_run defs (onTc (τ := τ) (main (F := F))) ⟨m, fun _ => 0, ρ⟩ (fun r => ∀ c : Dev nD,
      r.2.mem ((c.tc : Thread nD τ).loc main_v71) = W6 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v71 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.KValue

end
-- ==== Proof.LibMeanLayer.lean ====
/-
  One mean-aggregation graph layer, entry by entry on the extended reals, in the two arrangements the two
  programs use, and the law that joins them.

  A layer takes, per node p, the SUM agg(p,·) of its in-neighbours' feature rows, the node's in-degree c(p), its own
  feature row h(p,·), two weight matrices and a bias, and returns

      max( Σ_k mean(p,k)·W_l(q,k) + b(q) + Σ_k h(p,k)·W_r(q,k) , 0 ),      mean(p,k) = agg(p,k) / max(c(p),1).

  One program divides the sum by the clamped degree; the other multiplies it by the reciprocal 1 / max(c(p),1), uses
  the weights already transposed, and adds the bias last. The clamped degree is at least 1, so it is never zero, and
  for a nonzero divisor d both a / d and a·(1/d) are a·d⁻¹ — whatever a is, infinite values included. Sums of three terms
  in two orders agree because addition of extended reals is commutative and associative. No finiteness is used.
-/
import Idealize.ShloMosaic.PureOps.Ideal
import Idealize.ShloMosaic.Lib.ValueIdx

noncomputable section

namespace MeanLayer

open Idealize.ShloMosaic Idealize.ShloMosaic.ValueIdx

/-- The f32 word of 1.0 denotes the number 1. -/
theorem one_f32 : Ideal.ofBits .f32 0x3F800000#32 = 1 := by
  simp [Ideal.ofBits, Ideal.ieee, -EReal.coe_mul]; norm_num

/-- A degree clamped below by 1 is positive, so it is not zero. -/
theorem clamp_ne_zero (c : EReal) : max c 1 ≠ 0 :=
  ne_of_gt (lt_of_lt_of_le zero_lt_one (le_max_right c 1))

/-- Multiplying by the reciprocal of a clamped degree is dividing by it, for EVERY extended real `a`: both sides are
    `a · (max c 1)⁻¹`, the divisor not being zero. -/
theorem mul_recip_clamp (a c : EReal) : a * Ideal.div 1 (max c 1) = Ideal.div a (max c 1) := by
  rw [Ideal.div, Ideal.div, if_neg (clamp_ne_zero c), if_neg (clamp_ne_zero c), one_mul]

/-- The same with the two ones spelt as the f32 word of 1.0. -/
theorem mul_recip_clamp_word (a c : EReal) :
    a * Ideal.div (Ideal.ofBits .f32 0x3F800000#32) (max c (Ideal.ofBits .f32 0x3F800000#32))
      = Ideal.div a (max c (Ideal.ofBits .f32 0x3F800000#32)) := by
  rw [one_f32]; exact mul_recip_clamp a c

/-- A matrix of extended reals over the index type of an `[a, b]` array, and a vector over that of an `[a]` array. -/
abbrev Mat (a b : ℕ) := (⟨2, ![a, b]⟩ : Shape).Idx → EReal
abbrev Row (a : ℕ) := (⟨1, ![a]⟩ : Shape).Idx → EReal

/-- Hidden unit (p, q) of one layer in the arrangement that multiplies by a reciprocal degree column `inv`, contracts
    against weights stored input-feature-major (`wl (k, q)`), adds the self term second and the bias last, and
    rectifies against the f32 zero word. -/
def hidden {n d e : ℕ} (agg : Mat n d) (inv : Mat n 1) (h : Mat n d) (wl wr : Mat d e) (b : Row e)
    (p : Fin n) (q : Fin e) : EReal :=
  max ((∑ k : Fin d, (agg (ix2 p k) * inv (ix2 p (0 : Fin 1))) * wl (ix2 k q))
        + (∑ k : Fin d, h (ix2 p k) * wr (ix2 k q)) + b (ix1 q))
      (Ideal.ofBits .f32 0x00000000#32)

/-- The layer as a whole array: entry `i` is hidden unit `(i 0, i 1)`. -/
def layer {n d e : ℕ} (agg : Mat n d) (inv : Mat n 1) (h : Mat n d) (wl wr : Mat d e) (b : Row e) : Mat n e :=
  fun i => hidden agg inv h wl wr b (i 0) (i 1)

theorem layer_apply {n d e : ℕ} (agg : Mat n d) (inv : Mat n 1) (h : Mat n d) (wl wr : Mat d e) (b : Row e)
    (p : Fin n) (q : Fin e) : layer agg inv h wl wr b (ix2 p q) = hidden agg inv h wl wr b p q := rfl

/-- Output unit (p, r) of the last stage: a second layer's hidden row contracted against the read-out weights
    (stored hidden-feature-major, `fw (j, r)`) plus the read-out bias. -/
def readout {n d e o : ℕ} (agg : Mat n d) (inv : Mat n 1) (h : Mat n d) (wl wr : Mat d e) (b : Row e)
    (fw : Mat e o) (fb : Row o) (p : Fin n) (r : Fin o) : EReal :=
  (∑ j : Fin e, hidden agg inv h wl wr b p j * fw (ix2 j r)) + fb (ix1 r)

/-- The last stage as a whole array. -/
def head {n d e o : ℕ} (agg : Mat n d) (inv : Mat n 1) (h : Mat n d) (wl wr : Mat d e) (b : Row e)
    (fw : Mat e o) (fb : Row o) : Mat n o :=
  fun i => readout agg inv h wl wr b fw fb (i 0) (i 1)

theorem head_apply {n d e o : ℕ} (agg : Mat n d) (inv : Mat n 1) (h : Mat n d) (wl wr : Mat d e) (b : Row e)
    (fw : Mat e o) (fb : Row o) (p : Fin n) (r : Fin o) :
    head agg inv h wl wr b fw fb (ix2 p r) = readout agg inv h wl wr b fw fb p r := rfl

/-- The joining law at one hidden unit: with the reciprocal column `1 / max(c p, 1)` and transposed weights, the
    reciprocal arrangement equals the dividing one (division first, bias second, self term last). -/
theorem hidden_eq_divided {n d e : ℕ} (agg : Mat n d) (c : Fin n → EReal) (inv : Mat n 1) (h : Mat n d)
    (wl wr : Mat d e) (Wl Wr : Mat e d) (b : Row e)
    (hinv : ∀ p, inv (ix2 p (0 : Fin 1))
      = Ideal.div (Ideal.ofBits .f32 0x3F800000#32) (max (c p) (Ideal.ofBits .f32 0x3F800000#32)))
    (hwl : ∀ k q, wl (ix2 k q) = Wl (ix2 q k)) (hwr : ∀ k q, wr (ix2 k q) = Wr (ix2 q k))
    (p : Fin n) (q : Fin e) :
    hidden agg inv h wl wr b p q
      = max ((∑ k : Fin d, Ideal.div (agg (ix2 p k)) (max (c p) (Ideal.ofBits .f32 0x3F800000#32)) * Wl (ix2 q k))
              + b (ix1 q) + (∑ k : Fin d, h (ix2 p k) * Wr (ix2 q k)))
            (Ideal.ofBits .f32 0x00000000#32) := by
  unfold hidden
  congr 1
  rw [add_right_comm]
  congr 1
  · congr 1
    refine Finset.sum_congr rfl fun k _ => ?_
    rw [hinv p, mul_recip_clamp_word, hwl]
  · refine Finset.sum_congr rfl fun k _ => ?_
    rw [hwr]

end MeanLayer

end
-- ==== Proof.Spec.lean ====
/-
  Three residual mean-aggregation graph layers, entry by entry on the extended reals.

  A layer takes a node-feature matrix h (n nodes, d features), the matrix mean of each node's averaged in-neighbour
  features, two d×d weight matrices and a bias row, and returns at node p, feature q

      act( ( ( Σ_k mean(p,k)·W_l(k,q) + b(q) ) + Σ_k h(p,k)·W_r(k,q) ) + h(p,q) ),

  where act is max(·, 0) on the first two layers and the identity on the last. The sums are grouped exactly so in
  both programs, so nothing about the addition of extended reals is used.

  The averaged features are the per-node SUM agg(p,·) of the in-neighbours' rows, normalised by the in-degree c(p)
  clamped below by 1. One program divides, agg(p,k) / max(c(p),1); the other multiplies by the reciprocal
  1 / max(c(p),1) computed once. The clamped degree is at least 1, hence never zero, and for a nonzero divisor both are
  agg(p,k)·(max(c(p),1))⁻¹ — for every extended real agg(p,k), the infinities included. That is the one law joining the
  two programs; no finiteness is used.

  The network composes three layers, each normalising the sum over the previous layer's output.
-/
import Idealize.ShloMosaic.PureOps.Ideal
import Idealize.ShloMosaic.Lib.ValueIdx
import proofs.«127879_j87591563034885_1_alg».proof.Proof.LibMeanLayer

noncomputable section

namespace Sage

open Idealize.ShloMosaic Idealize.ShloMosaic.ValueIdx MeanLayer

/-- The f32 words of 1.0 and 0.0, as the extended reals they denote. They are never evaluated: the same words stand
    on both sides of every equation. -/
abbrev one : EReal := Ideal.ofBits .f32 0x3F800000#32
abbrev zero : EReal := Ideal.ofBits .f32 0x00000000#32

/-- The activation: max(·, 0) when rectifying, the identity otherwise. -/
def act (relu : Bool) (x : EReal) : EReal := if relu then max x zero else x

theorem act_true (x : EReal) : act true x = max x zero := rfl
theorem act_false (x : EReal) : act false x = x := rfl

/-- Output unit (p, q) of one layer. -/
def unit {n d : ℕ} (relu : Bool) (mean h : Mat n d) (wl : Mat d d) (b : Row d) (wr : Mat d d)
    (p : Fin n) (q : Fin d) : EReal :=
  act relu ((((∑ k : Fin d, mean (ix2 p k) * wl (ix2 k q)) + b (ix1 q))
              + ∑ k : Fin d, h (ix2 p k) * wr (ix2 k q)) + h (ix2 p q))

/-- One layer as a whole array: entry i is output unit (i 0, i 1). -/
def layer {n d : ℕ} (relu : Bool) (mean h : Mat n d) (wl : Mat d d) (b : Row d) (wr : Mat d d) : Mat n d :=
  fun i => unit relu mean h wl b wr (i 0) (i 1)

theorem layer_apply {n d : ℕ} (relu : Bool) (mean h : Mat n d) (wl : Mat d d) (b : Row d) (wr : Mat d d)
    (p : Fin n) (q : Fin d) : layer relu mean h wl b wr (ix2 p q) = unit relu mean h wl b wr p q := rfl

/-- The neighbour sum normalised by multiplying with the reciprocal of the clamped degree. -/
def meanMul {n d : ℕ} (agg : Mat n d) (c : Row n) : Mat n d :=
  fun i => agg i * Ideal.div one (max (c (ix1 (i 0))) one)

/-- The neighbour sum normalised by dividing by the clamped degree. -/
def meanDiv {n d : ℕ} (agg : Mat n d) (c : Row n) : Mat n d :=
  fun i => Ideal.div (agg i) (max (c (ix1 (i 0))) one)

theorem meanMul_apply {n d : ℕ} (agg : Mat n d) (c : Row n) (p : Fin n) (k : Fin d) :
    meanMul agg c (ix2 p k) = agg (ix2 p k) * Ideal.div one (max (c (ix1 p)) one) := rfl

theorem meanDiv_apply {n d : ℕ} (agg : Mat n d) (c : Row n) (p : Fin n) (k : Fin d) :
    meanDiv agg c (ix2 p k) = Ideal.div (agg (ix2 p k)) (max (c (ix1 p)) one) := rfl

/-- The two normalisations are one function: the clamped degree is not zero, so multiplying by its reciprocal is
    dividing by it, whatever the sum is. -/
theorem meanMul_eq_meanDiv {n d : ℕ} (agg : Mat n d) (c : Row n) : meanMul agg c = meanDiv agg c :=
  funext fun i => mul_recip_clamp_word (agg i) (c (ix1 (i 0)))

/-- Three layers, the first two rectified, each fed the normalised neighbour sum mean of the features it transforms. -/
def net {n d : ℕ} (mean : Mat n d → Mat n d) (x : Mat n d)
    (wl0 : Mat d d) (b0 : Row d) (wr0 : Mat d d)
    (wl1 : Mat d d) (b1 : Row d) (wr1 : Mat d d)
    (wl2 : Mat d d) (b2 : Row d) (wr2 : Mat d d) : Mat n d :=
  layer false
    (mean (layer true (mean (layer true (mean x) x wl0 b0 wr0)) (layer true (mean x) x wl0 b0 wr0) wl1 b1 wr1))
    (layer true (mean (layer true (mean x) x wl0 b0 wr0)) (layer true (mean x) x wl0 b0 wr0) wl1 b1 wr1)
    wl2 b2 wr2

end Sage

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«127879_j87591563034885_1_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibTileOps.lean ====
/-
  The layout chains of a tile body, read at an entry.

  A body that works on an `[a, b]` tile against per-column parameters meets a handful of chains of layout
  operations again and again: a `[b]` vector recast to the row `[1, b]` and broadcast down the tile's rows; one row of a
  `[m, b]` block sliced out, flattened, recast and broadcast the same way; one `[1, a, b]` slab of an `[m, a, b]` stack
  loaded through its rectangle and recast to the matrix `[a, b]`; a row sum recast to a column and broadcast across the
  tile's columns. Each lemma reads one chain at the entry `(p, c)` as the operand at the evident index.
-/
import Idealize.ShloMosaic.PureOps.Ideal.Laws
import Idealize.ShloMosaic.Lib.ValueIdx
import Idealize.ShloMosaic.Lib.ValueLayout
import Idealize.ShloMosaic.Lib.Pipeline.Value
import proofs.«127879_j87591563034885_1_alg».proof.Proof.LibRowOps

namespace Hmu.Lib

open Idealize.ShloMosaic Idealize.ShloMosaic.ValueIdx

variable {a b m : ℕ} {α : Type}

/-- A `[b]` vector recast to the row `[1, b]` and broadcast over `[a, b]` reads, at `(p, c)`, the vector at `c`. -/
theorem rowVec_apply (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The same with a cast of the vector to its own shape first. -/
theorem rowVec_self_apply (v : (⟨1, ![b]⟩ : Shape).Idx → α) (h0 : (⟨1, ![b]⟩ : Shape).ShapeCasts ⟨1, ![b]⟩)
    (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ v h0) h1) h2 (ix2 p c) = v (ix1 c) := by
  rw [shapeCast_self]; exact rowVec_apply v h1 h2 p c

/-- Row `k` of an `[m, b]` block, sliced out as `[1, b]` at the literal offset `o = k`, flattened to `[b]`, recast to `[1, b]` and
    broadcast over `[a, b]`, reads at `(p, c)` the block at `(k, c)`. -/
theorem blockRow_apply (v : (⟨2, ![m, b]⟩ : Shape).Idx → α) (o : ℕ) (k : Fin m) (hk : k.val = o)
    (hs : (⟨2, ![m, b]⟩ : Shape).Slices ![o, 0] ⟨2, ![1, b]⟩)
    (h0 : (⟨2, ![1, b]⟩ : Shape).ShapeCasts ⟨1, ![b]⟩) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ (extractStridedSlice ⟨2, ![1, b]⟩ ![o, 0] v hs) h0) h1) h2 (ix2 p c)
      = v (ix2 k c) :=
  (rowVec_apply _ h1 h2 p c).trans <| (shapeCast_1a_a_apply _ h0 c).trans <|
    slice2_axis0_apply o v hs (0 : Fin 1) c k (by simp [hk])

/-- A row sum of an `[a, b]` tile, recast to the column `[a, 1]` and broadcast over `[a, b]`, reads at `(p, c)` the sum of
    row `p`. -/
theorem rowSumCol_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ (multiReduction .add [1] ⟨1, ![a]⟩ v 0x00000000#32 h hφ hacc) h1) h2 (ix2 p c)
      = ∑ k : Fin b, v (ix2 p k) :=
  (Gcn.Lib.broadcastTo_a1_ab_apply _ h2 p c).trans <| (Gcn.Lib.shapeCast_a_a1_apply _ h1 p 0).trans <|
    Gcn.Lib.rowSum_apply v h hφ hacc p

/-- Slab `k` of an `[m, a, b]` stack, loaded through the rectangle of extents `[1, a, b]` at the literal offsets `[o, 0, 0]`,
    `o = k`, reads at `(0, i, j)` the stack at `(k, i, j)`. -/
theorem ld_slab {Val : EltTy → Type} {e : EltTy} (x : (⟨3, ![m, a, b]⟩ : Shape).Idx → Val e) (o : ℕ) (k : Fin m) (hk : k.val = o)
    (inb : ∀ ax, (![o, 0, 0] : Fin 3 → ℕ) ax + (⟨3, ![1, a, b]⟩ : Shape).size ax ≤ (⟨3, ![m, a, b]⟩ : Shape).size ax)
    (i : Fin a) (j : Fin b) :
    View.ld (Val := Val) x (Rect.unit (s := ⟨3, ![m, a, b]⟩) ![o, 0, 0] (⟨3, ![1, a, b]⟩ : Shape).size inb) (ix3 (0 : Fin 1) i j)
      = x (ix3 k i j) := by
  show x ((Rect.unit (s := ⟨3, ![m, a, b]⟩) ![o, 0, 0] (⟨3, ![1, a, b]⟩ : Shape).size inb).idx (ix3 (0 : Fin 1) i j)) = _
  refine congrArg x (funext fun ax => Fin.ext ?_)
  match ax with
  | ⟨0, _⟩ => show o + 1 * 0 = k.val; omega
  | ⟨1, _⟩ => show 0 + 1 * i.val = i.val; omega
  | ⟨2, _⟩ => show 0 + 1 * j.val = j.val; omega

end Hmu.Lib
-- ==== Proof.KTile.lean ====
/-
  The tile body of one graph layer, read at an entry.

  On a tile of a rows the body forms, from the tile of node features x, the tile of averaged neighbour features mean,
  two d-by-d weight matrices and a bias row,

      ( ( mean · W_l + b ) + x · W_r ) + x ,

  and the first two layers then take the maximum with zero. The narrowing of the products' operands is the identity on
  the extended reals, a product accumulated into the zero vector is the plain sum over the contracted axis, and the bias
  recast to a one-row matrix and broadcast down the rows reads the bias at the column. So entry (p, q) of the stored tile
  is output unit (p, q) of the layer, over the tile's own rows.
-/
import proofs.«127879_j87591563034885_1_alg».proof.Proof.Gen.KernelIdeal.Skeleton
import proofs.«127879_j87591563034885_1_alg».proof.Proof.Spec
import proofs.«127879_j87591563034885_1_alg».proof.Proof.LibDotRecord
import proofs.«127879_j87591563034885_1_alg».proof.Proof.LibTileOps
import Idealize.ShloMosaic.Lib.ValueIdx
import Idealize.ShloMosaic.Lib.Pipeline.Value

noncomputable section

namespace Cert.KernelIdeal.KValue

open Idealize.ShloMosaic Idealize.ShloMosaic.ValueIdx

/-- The sum the body forms before the activation, for any tile height a and width d, under any product record with
    the plain axis lists and any proofs of the layout side conditions: at (p, q) it is the layer's pre-activation. -/
theorem preact_apply {a d : ℕ} (D : DotDims ⟨2, ![a, d]⟩ ⟨2, ![d, d]⟩ ⟨2, ![a, d]⟩)
    (h1 : D.lhsContracting = [1]) (h2 : D.rhsContracting = [0]) (h3 : D.lhsNonContracting = [0])
    (h4 : D.rhsNonContracting = [1]) (h5 : D.lhsBatch = []) (h6 : D.rhsBatch = [])
    (x mean : FVec Ideal ⟨2, ![a, d]⟩ .f32) (wl wr : FVec Ideal ⟨2, ![d, d]⟩ .f32) (bl : FVec Ideal ⟨1, ![d]⟩ .f32)
    (hb : FTy.bits .bf16 < FTy.bits .f32)
    (c0 : (⟨1, ![d]⟩ : Shape).ShapeCasts ⟨1, ![d]⟩) (c1 : (⟨1, ![d]⟩ : Shape).ShapeCasts ⟨2, ![1, d]⟩)
    (c2 : (⟨2, ![1, d]⟩ : Shape).Broadcasts ⟨2, ![a, d]⟩) (p : Fin a) (q : Fin d) :
    addf (addf (addf (matmul D none (truncf .bf16 mean hb) (truncf .bf16 wl hb) (constant (F := Ideal) ⟨2, ![a, d]⟩ .f32 0x00000000#32))
                     (broadcastTo ⟨2, ![a, d]⟩ (shapeCast ⟨2, ![1, d]⟩ (shapeCast ⟨1, ![d]⟩ bl c0) c1) c2))
               (matmul D none (truncf .bf16 x hb) (truncf .bf16 wr hb) (constant (F := Ideal) ⟨2, ![a, d]⟩ .f32 0x00000000#32)))
         x (ix2 p q)
      = (((∑ k : Fin d, mean (ix2 p k) * wl (ix2 k q)) + bl (ix1 q))
            + ∑ k : Fin d, x (ix2 p k) * wr (ix2 k q)) + x (ix2 p q) := by
  rw [addf_apply, addf_apply, addf_apply, Hmu.Lib.rowVec_self_apply bl c0 c1 c2 p q]
  exact congrArg₂ (fun u v : EReal => ((u + bl (ix1 q)) + v) + x (ix2 p q))
    (DotRecord.matmul_zero_apply D h1 h2 h3 h4 h5 h6 (truncf .bf16 mean hb) (truncf .bf16 wl hb) none p q)
    (DotRecord.matmul_zero_apply D h1 h2 h3 h4 h5 h6 (truncf .bf16 x hb) (truncf .bf16 wr hb) none p q)

/-- The product record the three bodies use has the plain axis lists. -/
theorem tileDot_lists :
    dot_S5000x128_S128x128_S5000x128_1_0_0_1_n_n.lhsContracting = [1]
    ∧ dot_S5000x128_S128x128_S5000x128_1_0_0_1_n_n.rhsContracting = [0]
    ∧ dot_S5000x128_S128x128_S5000x128_1_0_0_1_n_n.lhsNonContracting = [0]
    ∧ dot_S5000x128_S128x128_S5000x128_1_0_0_1_n_n.rhsNonContracting = [1]
    ∧ dot_S5000x128_S128x128_S5000x128_1_0_0_1_n_n.lhsBatch = []
    ∧ dot_S5000x128_S128x128_S5000x128_1_0_0_1_n_n.rhsBatch = [] := ⟨rfl, rfl, rfl, rfl, rfl, rfl⟩

/-- The first call's stored tile at (p, q): the rectified output unit of the layer over the tile's rows. -/
theorem pay0_apply (x mean : Vec Ideal S5000x128 .f32) (wl wr : Vec Ideal S128x128 .f32) (bl : Vec Ideal S128 .f32)
    (p : Fin 5000) (q : Fin 128) :
    Gen.k0_pay1 (F := Ideal) x mean wl wr bl (ix2 p q)
      = Sage.unit (n := 5000) (d := 128) true mean x wl bl wr p q := by
  obtain ⟨h1, h2, h3, h4, h5, h6⟩ := tileDot_lists
  unfold Gen.k0_pay1
  rw [shapeCast_self mean, shapeCast_self wl, shapeCast_self wr, maximumf_apply, broadcast_apply]
  refine (congrArg (fun u : EReal => max u (Scalar.ofBits (F := Ideal) .f32 0x00000000#32))
    (preact_apply dot_S5000x128_S128x128_S5000x128_1_0_0_1_n_n h1 h2 h3 h4 h5 h6 x mean wl wr bl _ _ _ _ p q)).trans ?_
  rfl

/-- The second call's stored tile at (p, q): the same, its feature tile passing through a cast to its own shape. -/
theorem pay1_apply (x mean : Vec Ideal S5000x128 .f32) (wl wr : Vec Ideal S128x128 .f32) (bl : Vec Ideal S128 .f32)
    (p : Fin 5000) (q : Fin 128) :
    Gen.k1_pay1 (F := Ideal) x mean wl wr bl (ix2 p q)
      = Sage.unit (n := 5000) (d := 128) true mean x wl bl wr p q := by
  obtain ⟨h1, h2, h3, h4, h5, h6⟩ := tileDot_lists
  unfold Gen.k1_pay1
  rw [shapeCast_self x, shapeCast_self mean, shapeCast_self wl, shapeCast_self wr, maximumf_apply, broadcast_apply]
  refine (congrArg (fun u : EReal => max u (Scalar.ofBits (F := Ideal) .f32 0x00000000#32))
    (preact_apply dot_S5000x128_S128x128_S5000x128_1_0_0_1_n_n h1 h2 h3 h4 h5 h6 x mean wl wr bl _ _ _ _ p q)).trans ?_
  rfl

/-- The third call's stored tile at (p, q): the output unit with no rectification. -/
theorem pay2_apply (x mean : Vec Ideal S5000x128 .f32) (wl wr : Vec Ideal S128x128 .f32) (bl : Vec Ideal S128 .f32)
    (p : Fin 5000) (q : Fin 128) :
    Gen.k2_pay1 (F := Ideal) x mean wl wr bl (ix2 p q)
      = Sage.unit (n := 5000) (d := 128) false mean x wl bl wr p q := by
  obtain ⟨h1, h2, h3, h4, h5, h6⟩ := tileDot_lists
  unfold Gen.k2_pay1
  rw [shapeCast_self x, shapeCast_self mean, shapeCast_self wl, shapeCast_self wr]
  refine (preact_apply dot_S5000x128_S128x128_S5000x128_1_0_0_1_n_n h1 h2 h3 h4 h5 h6 x mean wl wr bl _ _ _ _ p q).trans ?_
  rfl

end Cert.KernelIdeal.KValue

end
-- ==== Proof.KRegion0.lean ====
/-
  The first call's output array as one function of the arrays it reads.

  The call walks twenty row blocks of 5000 rows of a [100000, 128] array. At block t the features and the averaged
  neighbour features are read at rows 5000·t … 5000·t + 4999, the two weight matrices and the bias whole, and the body's
  stored tile is written back to the same rows of the output. Entry (p, q) of the tile is the layer's output unit at row
  5000·t + p, and the unit at a row only reads that row of the two feature arrays; so what block t writes back is block t
  of the whole-array layer. Row r lies in block r / 5000, so the blocks cover the array, and the array ends as the layer.
-/
import proofs.«127879_j87591563034885_1_alg».proof.Proof.Gen.KernelIdeal.Frame
import proofs.«127879_j87591563034885_1_alg».proof.Proof.KTile
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block index of each window at grid point t: the three row-blocked windows sit at block row t, the three whole
    ones at zero. -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem zeroOffsets2 : (![0, 0] : Fin 2 → Nat) = fun _ => 0 := funext fun a => by fin_cases a <;> rfl
theorem zeroOffsets1 : (![0] : Fin 1 → Nat) = fun _ => 0 := funext fun a => by fin_cases a; rfl

/-- Two functions on a [5000, 128] tile agree when they agree at every (p, q). -/
theorem tile_ext {α : Type} (f g : S5000x128.Idx → α)
    (h : ∀ (p : Fin 5000) (q : Fin 128), f (ix2 p q) = g (ix2 p q)) : f = g :=
  funext fun j => by rw [eq_ix2 j]; exact h _ _

/-- An output unit only reads its own row of the two feature arrays: the unit at row p of two tiles is the whole-array
    layer at row P, when row p of each tile is row P of its array. -/
theorem unit_of_rows (relu : Bool) (meanb xb : Vec Ideal S5000x128 .f32) (M X : S100000x128.Idx → EReal)
    (wl wr : S128x128.Idx → EReal) (b : S128.Idx → EReal) (p : Fin 5000) (P : Fin 100000) (q : Fin 128)
    (hm : ∀ k : Fin 128, meanb (ix2 p k) = M (ix2 P k)) (hx : ∀ k : Fin 128, xb (ix2 p k) = X (ix2 P k)) :
    Sage.unit (n := 5000) (d := 128) relu meanb xb wl b wr p q
      = Sage.layer (n := 100000) (d := 128) relu M X wl b wr (ix2 P q) := by
  rw [Sage.layer_apply]
  unfold Sage.unit
  simp only [hm, hx]

/-- Window 0's block at point t, at (p, k): the averaged-feature array at row 5000·t + p. -/
theorem meanBlock0_apply (c : Dev nD) (t : Fin cfg0.N) (p : Fin 5000) (k : Fin 128) (P : Fin 100000)
    (hP : P.val = 5000 * t.val + p.val) :
    (iblk0 V c 0 t : Vec Ideal S5000x128 .f32) (ix2 p k) = (V c main_v24 : S100000x128.Idx → EReal) (ix2 P k) := by
  obtain ⟨e0, e1, -⟩ := blockIndex0 t
  unfold iblk0
  rw [View.read_apply]
  show V c main_v24 _ = _
  refine congrArg (V c main_v24) (funext fun a => Fin.ext ?_)
  match a with
  | ⟨0, _⟩ => show win0_0.index t (0 : Fin 2) * 5000 + 1 * p.val = P.val; rw [e0, hP]; omega
  | ⟨1, _⟩ => show win0_0.index t (1 : Fin 2) * 128 + 1 * k.val = k.val; rw [e1]; omega

/-- Window 1's block at point t, at (p, k): the feature array at row 5000·t + p. -/
theorem xBlock0_apply (c : Dev nD) (t : Fin cfg0.N) (p : Fin 5000) (k : Fin 128) (P : Fin 100000)
    (hP : P.val = 5000 * t.val + p.val) :
    (iblk0 V c 1 t : Vec Ideal S5000x128 .f32) (ix2 p k) = (V c main_arg0 : S100000x128.Idx → EReal) (ix2 P k) := by
  obtain ⟨-, -, e0, e1, -⟩ := blockIndex0 t
  unfold iblk0
  rw [View.read_apply]
  show V c main_arg0 _ = _
  refine congrArg (V c main_arg0) (funext fun a => Fin.ext ?_)
  match a with
  | ⟨0, _⟩ => show win0_1.index t (0 : Fin 2) * 5000 + 1 * p.val = P.val; rw [e0, hP]; omega
  | ⟨1, _⟩ => show win0_1.index t (1 : Fin 2) * 128 + 1 * k.val = k.val; rw [e1]; omega

/-- Window 2's block at every point is the whole left weight matrix. -/
theorem wlBlock0_eq (c : Dev nD) (t : Fin cfg0.N) :
    (iblk0 V c 2 t : Vec Ideal S128x128 .f32) = (V c main_v26 : S128x128.Idx → EReal) := by
  obtain ⟨-, -, -, -, e0, e1, -⟩ := blockIndex0 t
  funext j
  unfold iblk0
  rw [View.read_apply]
  show V c main_v26 _ = _
  refine congrArg (V c main_v26) (funext fun a => Fin.ext ?_)
  match a with
  | ⟨0, _⟩ => show win0_2.index t (0 : Fin 2) * 128 + 1 * (j 0).val = (j 0).val; rw [e0]; omega
  | ⟨1, _⟩ => show win0_2.index t (1 : Fin 2) * 128 + 1 * (j 1).val = (j 1).val; rw [e1]; omega

/-- Window 3's block at every point is the whole bias row. -/
theorem biasBlock0_eq (c : Dev nD) (t : Fin cfg0.N) :
    (iblk0 V c 3 t : Vec Ideal S128 .f32) = (V c main_v28 : S128.Idx → EReal) := by
  obtain ⟨-, -, -, -, -, -, e0, -⟩ := blockIndex0 t
  funext j
  unfold iblk0
  rw [View.read_apply]
  show V c main_v28 _ = _
  refine congrArg (V c main_v28) (funext fun a => Fin.ext ?_)
  match a with
  | ⟨0, _⟩ => show win0_3.index t (0 : Fin 1) * 128 + 1 * (j 0).val = (j 0).val; rw [e0]; omega

/-- Window 4's block at every point is the whole right weight matrix. -/
theorem wrBlock0_eq (c : Dev nD) (t : Fin cfg0.N) :
    (iblk0 V c 4 t : Vec Ideal S128x128 .f32) = (V c main_v30 : S128x128.Idx → EReal) := by
  obtain ⟨-, -, -, -, -, -, -, e0, e1, -⟩ := blockIndex0 t
  funext j
  unfold iblk0
  rw [View.read_apply]
  show V c main_v30 _ = _
  refine congrArg (V c main_v30) (funext fun a => Fin.ext ?_)
  match a with
  | ⟨0, _⟩ => show win0_4.index t (0 : Fin 2) * 128 + 1 * (j 0).val = (j 0).val; rw [e0]; omega
  | ⟨1, _⟩ => show win0_4.index t (1 : Fin 2) * 128 + 1 * (j 1).val = (j 1).val; rw [e1]; omega

/-- Entry (p, q) of the output's block at point t is entry (5000·t + p, q) of the array. -/
theorem outBlock0_emb (t : Fin cfg0.N) (p : Fin 5000) (q : Fin 128) (P : Fin 100000)
    (hP : P.val = 5000 * t.val + p.val) :
    ((cfg0.win 5).blk t).view.emb (ix2 p q) = (ix2 P q : S100000x128.Idx) := by
  obtain ⟨-, -, -, -, -, -, -, -, -, e0, e1⟩ := blockIndex0 t
  funext a
  apply Fin.ext
  match a with
  | ⟨0, _⟩ => show win0_5.index t (0 : Fin 2) * 5000 + 1 * p.val = P.val; rw [e0, hP]; omega
  | ⟨1, _⟩ => show win0_5.index t (1 : Fin 2) * 128 + 1 * q.val = q.val; rw [e1]; omega

/-- What point t writes back is block t of the whole-array layer of the arrays the call reads. -/
theorem flushed0_eq (c : Dev nD) (t : Fin cfg0.N) :
    (dat0 V c).flushed 5 t = ((cfg0.win 5).blk t).view.read (Elt Ideal)
      (Sage.layer (n := 100000) (d := 128) true (V c main_v24) (V c main_arg0) (V c main_v26) (V c main_v28) (V c main_v30)) := by
  show (cfg0.win 5).cut (grid0.coords t) ((dat0 V c).after 5 t) = _
  rw [after0_5]
  unfold out0_5
  rw [View.canon_unit_zero zeroOffsets2]
  simp only [View.ld_unit_zero (S := S5000x128) zeroOffsets2, View.ld_unit_zero (S := S128x128) zeroOffsets2,
    View.ld_unit_zero (S := S128) zeroOffsets1]
  rw [wlBlock0_eq V c t, biasBlock0_eq V c t, wrBlock0_eq V c t]
  refine tile_ext _ _ fun p q => ?_
  have hN : cfg0.N = 20 := N_0
  have ht : t.val < 20 := hN ▸ t.isLt
  have hp : p.val < 5000 := p.isLt
  obtain ⟨P, hP⟩ : ∃ P : Fin 100000, P.val = 5000 * t.val + p.val := ⟨⟨5000 * t.val + p.val, by omega⟩, rfl⟩
  rw [View.read_apply, outBlock0_emb t p q P hP]
  show Gen.k0_pay1 (F := Ideal) (iblk0 V c 1 t) (iblk0 V c 0 t) (V c main_v26) (V c main_v30) (V c main_v28) (ix2 p q) = _
  rw [pay0_apply]
  exact unit_of_rows true _ _ _ _ _ _ _ p P q (fun k => meanBlock0_apply V c t p k P hP) (fun k => xBlock0_apply V c t p k P hP)

/-- An index of the output array is in point t's block iff each coordinate is in the block's range on its axis. -/
theorem mem_outBlock0 (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v31).slice (win0_5.rect t)).set ↔ _
  rw [View.set_slice_whole, Rect.mem_set_unit]
  exact Iff.rfl

/-- Row r of the output array lies in the block of point r / 5000: the twenty blocks cover the array. -/
theorem covered0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, -, e0, e1⟩ := blockIndex0 t
  refine ⟨t, flush0_5 t, ?_⟩
  rw [mem_outBlock0]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 128 ≤ (i 1).val ∧ (i 1).val < win0_5.index t (1 : Fin 2) * 128 + 128
    rw [e1]; omega

/-- After the first call its output array is the rectified layer of the arrays the call reads. -/
theorem region0_array (c : Dev nD) :
    (Gen.dat0 (F := Ideal) V c).arrAt 5 cfg0.N
      = Sage.layer (n := 100000) (d := 128) true (V c main_v24) (V c main_arg0) (V c main_v26) (V c main_v28) (V c main_v30) :=
  (dat0 V c).arrAt_eq_of_cover 5 _ (fun t _ => flushed0_eq V c t) covered0

end Cert.KernelIdeal.KValue

end
-- ==== Proof.KRegion1.lean ====
/-
  The second call's output array as one function of the arrays it reads.

  The second call has the first one's shape: twenty row blocks of 5000 rows, the two feature arrays read at the block's
  rows, the weights and the bias whole, the stored tile written back to the same rows. Its features are the first call's
  output and its averaged neighbour features are computed from that output between the calls; here both are just the
  arrays the call finds. Block t of what it writes is block t of the rectified whole-array layer, the blocks cover the
  array, and the array ends as that layer.
-/
import proofs.«127879_j87591563034885_1_alg».proof.Proof.Gen.KernelIdeal.Frame
import proofs.«127879_j87591563034885_1_alg».proof.Proof.KTile
import proofs.«127879_j87591563034885_1_alg».proof.Proof.KRegion0
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block index of each window at grid point t: the three row-blocked windows sit at block row t, the three whole
    ones at zero. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point t, at (p, k): the averaged-feature array at row 5000·t + p. -/
theorem meanBlock1_apply (c : Dev nD) (t : Fin cfg1.N) (p : Fin 5000) (k : Fin 128) (P : Fin 100000)
    (hP : P.val = 5000 * t.val + p.val) :
    (iblk1 V c 0 t : Vec Ideal S5000x128 .f32) (ix2 p k) = (V c main_v44 : S100000x128.Idx → EReal) (ix2 P k) := by
  obtain ⟨e0, e1, -⟩ := blockIndex1 t
  unfold iblk1
  rw [View.read_apply]
  show V c main_v44 _ = _
  refine congrArg (V c main_v44) (funext fun a => Fin.ext ?_)
  match a with
  | ⟨0, _⟩ => show win1_0.index t (0 : Fin 2) * 5000 + 1 * p.val = P.val; rw [e0, hP]; omega
  | ⟨1, _⟩ => show win1_0.index t (1 : Fin 2) * 128 + 1 * k.val = k.val; rw [e1]; omega

/-- Window 1's block at point t, at (p, k): the feature array at row 5000·t + p. -/
theorem xBlock1_apply (c : Dev nD) (t : Fin cfg1.N) (p : Fin 5000) (k : Fin 128) (P : Fin 100000)
    (hP : P.val = 5000 * t.val + p.val) :
    (iblk1 V c 1 t : Vec Ideal S5000x128 .f32) (ix2 p k) = (V c main_v31 : S100000x128.Idx → EReal) (ix2 P k) := by
  obtain ⟨-, -, e0, e1, -⟩ := blockIndex1 t
  unfold iblk1
  rw [View.read_apply]
  show V c main_v31 _ = _
  refine congrArg (V c main_v31) (funext fun a => Fin.ext ?_)
  match a with
  | ⟨0, _⟩ => show win1_1.index t (0 : Fin 2) * 5000 + 1 * p.val = P.val; rw [e0, hP]; omega
  | ⟨1, _⟩ => show win1_1.index t (1 : Fin 2) * 128 + 1 * k.val = k.val; rw [e1]; omega

/-- Window 2's block at every point is the whole left weight matrix. -/
theorem wlBlock1_eq (c : Dev nD) (t : Fin cfg1.N) :
    (iblk1 V c 2 t : Vec Ideal S128x128 .f32) = (V c main_v46 : S128x128.Idx → EReal) := by
  obtain ⟨-, -, -, -, e0, e1, -⟩ := blockIndex1 t
  funext j
  unfold iblk1
  rw [View.read_apply]
  show V c main_v46 _ = _
  refine congrArg (V c main_v46) (funext fun a => Fin.ext ?_)
  match a with
  | ⟨0, _⟩ => show win1_2.index t (0 : Fin 2) * 128 + 1 * (j 0).val = (j 0).val; rw [e0]; omega
  | ⟨1, _⟩ => show win1_2.index t (1 : Fin 2) * 128 + 1 * (j 1).val = (j 1).val; rw [e1]; omega

/-- Window 3's block at every point is the whole bias row. -/
theorem biasBlock1_eq (c : Dev nD) (t : Fin cfg1.N) :
    (iblk1 V c 3 t : Vec Ideal S128 .f32) = (V c main_v48 : S128.Idx → EReal) := by
  obtain ⟨-, -, -, -, -, -, e0, -⟩ := blockIndex1 t
  funext j
  unfold iblk1
  rw [View.read_apply]
  show V c main_v48 _ = _
  refine congrArg (V c main_v48) (funext fun a => Fin.ext ?_)
  match a with
  | ⟨0, _⟩ => show win1_3.index t (0 : Fin 1) * 128 + 1 * (j 0).val = (j 0).val; rw [e0]; omega

/-- Window 4's block at every point is the whole right weight matrix. -/
theorem wrBlock1_eq (c : Dev nD) (t : Fin cfg1.N) :
    (iblk1 V c 4 t : Vec Ideal S128x128 .f32) = (V c main_v50 : S128x128.Idx → EReal) := by
  obtain ⟨-, -, -, -, -, -, -, e0, e1, -⟩ := blockIndex1 t
  funext j
  unfold iblk1
  rw [View.read_apply]
  show V c main_v50 _ = _
  refine congrArg (V c main_v50) (funext fun a => Fin.ext ?_)
  match a with
  | ⟨0, _⟩ => show win1_4.index t (0 : Fin 2) * 128 + 1 * (j 0).val = (j 0).val; rw [e0]; omega
  | ⟨1, _⟩ => show win1_4.index t (1 : Fin 2) * 128 + 1 * (j 1).val = (j 1).val; rw [e1]; omega

/-- Entry (p, q) of the output's block at point t is entry (5000·t + p, q) of the array. -/
theorem outBlock1_emb (t : Fin cfg1.N) (p : Fin 5000) (q : Fin 128) (P : Fin 100000)
    (hP : P.val = 5000 * t.val + p.val) :
    ((cfg1.win 5).blk t).view.emb (ix2 p q) = (ix2 P q : S100000x128.Idx) := by
  obtain ⟨-, -, -, -, -, -, -, -, -, e0, e1⟩ := blockIndex1 t
  funext a
  apply Fin.ext
  match a with
  | ⟨0, _⟩ => show win1_5.index t (0 : Fin 2) * 5000 + 1 * p.val = P.val; rw [e0, hP]; omega
  | ⟨1, _⟩ => show win1_5.index t (1 : Fin 2) * 128 + 1 * q.val = q.val; rw [e1]; omega

/-- What point t writes back is block t of the whole-array layer of the arrays the call reads. -/
theorem flushed1_eq (c : Dev nD) (t : Fin cfg1.N) :
    (dat1 V c).flushed 5 t = ((cfg1.win 5).blk t).view.read (Elt Ideal)
      (Sage.layer (n := 100000) (d := 128) true (V c main_v44) (V c main_v31) (V c main_v46) (V c main_v48) (V c main_v50)) := by
  show (cfg1.win 5).cut (grid1.coords t) ((dat1 V c).after 5 t) = _
  rw [after1_5]
  unfold out1_5
  rw [View.canon_unit_zero zeroOffsets2]
  simp only [View.ld_unit_zero (S := S5000x128) zeroOffsets2, View.ld_unit_zero (S := S128x128) zeroOffsets2,
    View.ld_unit_zero (S := S128) zeroOffsets1]
  rw [wlBlock1_eq V c t, biasBlock1_eq V c t, wrBlock1_eq V c t]
  refine tile_ext _ _ fun p q => ?_
  have hN : cfg1.N = 20 := N_1
  have ht : t.val < 20 := hN ▸ t.isLt
  have hp : p.val < 5000 := p.isLt
  obtain ⟨P, hP⟩ : ∃ P : Fin 100000, P.val = 5000 * t.val + p.val := ⟨⟨5000 * t.val + p.val, by omega⟩, rfl⟩
  rw [View.read_apply, outBlock1_emb t p q P hP]
  show Gen.k1_pay1 (F := Ideal) (iblk1 V c 1 t) (iblk1 V c 0 t) (V c main_v46) (V c main_v50) (V c main_v48) (ix2 p q) = _
  rw [pay1_apply]
  exact unit_of_rows true _ _ _ _ _ _ _ p P q (fun k => meanBlock1_apply V c t p k P hP) (fun k => xBlock1_apply V c t p k P hP)

/-- An index of the output array is in point t's block iff each coordinate is in the block's range on its axis. -/
theorem mem_outBlock1 (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v51).slice (win1_5.rect t)).set ↔ _
  rw [View.set_slice_whole, Rect.mem_set_unit]
  exact Iff.rfl

/-- Row r of the output array lies in the block of point r / 5000: the twenty blocks cover the array. -/
theorem covered1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, -, e0, e1⟩ := blockIndex1 t
  refine ⟨t, flush1_5 t, ?_⟩
  rw [mem_outBlock1]
  intro a
  match a with
  | ⟨0, _⟩ =>
    show win1_5.index t (0 : Fin 2) * 5000 ≤ (i 0).val ∧ (i 0).val < win1_5.index t (0 : Fin 2) * 5000 + 5000
    rw [e0, ht]; omega
  | ⟨1, _⟩ =>
    show win1_5.index t (1 : Fin 2) * 128 ≤ (i 1).val ∧ (i 1).val < win1_5.index t (1 : Fin 2) * 128 + 128
    rw [e1]; omega

/-- After the second call its output array is the rectified layer of the arrays the call reads. -/
theorem region1_array (c : Dev nD) :
    (Gen.dat1 (F := Ideal) V c).arrAt 5 cfg1.N
      = Sage.layer (n := 100000) (d := 128) true (V c main_v44) (V c main_v31) (V c main_v46) (V c main_v48) (V c main_v50) :=
  (dat1 V c).arrAt_eq_of_cover 5 _ (fun t _ => flushed1_eq V c t) covered1

end Cert.KernelIdeal.KValue

end
-- ==== Proof.KRegion2.lean ====
/-
  The last call's output array as one function of the arrays it reads.

  As in the first two calls, twenty row blocks of 5000 rows of a [100000, 128] array: at block t the features and the
  averaged neighbour features are read at rows 5000·t … 5000·t + 4999, the two weight matrices and the bias whole, and the
  stored tile is written back to the same rows of the output. The last layer does not rectify: entry (p, q) of the tile
  is the layer's plain output unit at row 5000·t + p. Block t of the output is therefore block t of the whole-array layer,
  the blocks cover the array, and the array ends as the layer.
-/
import proofs.«127879_j87591563034885_1_alg».proof.Proof.Gen.KernelIdeal.Frame
import proofs.«127879_j87591563034885_1_alg».proof.Proof.KTile
import proofs.«127879_j87591563034885_1_alg».proof.Proof.KRegion0
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The block index of each window at grid point t: the three row-blocked windows sit at block row t, the three whole
    ones at zero. -/
theorem blockIndex2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Window 0's block at point t, at (p, k): the averaged-feature array at row 5000·t + p. -/
theorem meanBlock2_apply (c : Dev nD) (t : Fin cfg2.N) (p : Fin 5000) (k : Fin 128) (P : Fin 100000)
    (hP : P.val = 5000 * t.val + p.val) :
    (iblk2 V c 0 t : Vec Ideal S5000x128 .f32) (ix2 p k) = (V c main_v64 : S100000x128.Idx → EReal) (ix2 P k) := by
  obtain ⟨e0, e1, -⟩ := blockIndex2 t
  unfold iblk2
  rw [View.read_apply]
  show V c main_v64 _ = _
  refine congrArg (V c main_v64) (funext fun a => Fin.ext ?_)
  match a with
  | ⟨0, _⟩ => show win2_0.index t (0 : Fin 2) * 5000 + 1 * p.val = P.val; rw [e0, hP]; omega
  | ⟨1, _⟩ => show win2_0.index t (1 : Fin 2) * 128 + 1 * k.val = k.val; rw [e1]; omega

/-- Window 1's block at point t, at (p, k): the feature array at row 5000·t + p. -/
theorem xBlock2_apply (c : Dev nD) (t : Fin cfg2.N) (p : Fin 5000) (k : Fin 128) (P : Fin 100000)
    (hP : P.val = 5000 * t.val + p.val) :
    (iblk2 V c 1 t : Vec Ideal S5000x128 .f32) (ix2 p k) = (V c main_v51 : S100000x128.Idx → EReal) (ix2 P k) := by
  obtain ⟨-, -, e0, e1, -⟩ := blockIndex2 t
  unfold iblk2
  rw [View.read_apply]
  show V c main_v51 _ = _
  refine congrArg (V c main_v51) (funext fun a => Fin.ext ?_)
  match a with
  | ⟨0, _⟩ => show win2_1.index t (0 : Fin 2) * 5000 + 1 * p.val = P.val; rw [e0, hP]; omega
  | ⟨1, _⟩ => show win2_1.index t (1 : Fin 2) * 128 + 1 * k.val = k.val; rw [e1]; omega

/-- Window 2's block at every point is the whole left weight matrix. -/
theorem wlBlock2_eq (c : Dev nD) (t : Fin cfg2.N) :
    (iblk2 V c 2 t : Vec Ideal S128x128 .f32) = (V c main_v66 : S128x128.Idx → EReal) := by
  obtain ⟨-, -, -, -, e0, e1, -⟩ := blockIndex2 t
  funext j
  unfold iblk2
  rw [View.read_apply]
  show V c main_v66 _ = _
  refine congrArg (V c main_v66) (funext fun a => Fin.ext ?_)
  match a with
  | ⟨0, _⟩ => show win2_2.index t (0 : Fin 2) * 128 + 1 * (j 0).val = (j 0).val; rw [e0]; omega
  | ⟨1, _⟩ => show win2_2.index t (1 : Fin 2) * 128 + 1 * (j 1).val = (j 1).val; rw [e1]; omega

/-- Window 3's block at every point is the whole bias row. -/
theorem biasBlock2_eq (c : Dev nD) (t : Fin cfg2.N) :
    (iblk2 V c 3 t : Vec Ideal S128 .f32) = (V c main_v68 : S128.Idx → EReal) := by
  obtain ⟨-, -, -, -, -, -, e0, -⟩ := blockIndex2 t
  funext j
  unfold iblk2
  rw [View.read_apply]
  show V c main_v68 _ = _
  refine congrArg (V c main_v68) (funext fun a => Fin.ext ?_)
  match a with
  | ⟨0, _⟩ => show win2_3.index t (0 : Fin 1) * 128 + 1 * (j 0).val = (j 0).val; rw [e0]; omega

/-- Window 4's block at every point is the whole right weight matrix. -/
theorem wrBlock2_eq (c : Dev nD) (t : Fin cfg2.N) :
    (iblk2 V c 4 t : Vec Ideal S128x128 .f32) = (V c main_v70 : S128x128.Idx → EReal) := by
  obtain ⟨-, -, -, -, -, -, -, e0, e1, -⟩ := blockIndex2 t
  funext j
  unfold iblk2
  rw [View.read_apply]
  show V c main_v70 _ = _
  refine congrArg (V c main_v70) (funext fun a => Fin.ext ?_)
  match a with
  | ⟨0, _⟩ => show win2_4.index t (0 : Fin 2) * 128 + 1 * (j 0).val = (j 0).val; rw [e0]; omega
  | ⟨1, _⟩ => show win2_4.index t (1 : Fin 2) * 128 + 1 * (j 1).val = (j 1).val; rw [e1]; omega

/-- Entry (p, q) of the output's block at point t is entry (5000·t + p, q) of the array. -/
theorem outBlock2_emb (t : Fin cfg2.N) (p : Fin 5000) (q : Fin 128) (P : Fin 100000)
    (hP : P.val = 5000 * t.val + p.val) :
    ((cfg2.win 5).blk t).view.emb (ix2 p q) = (ix2 P q : S100000x128.Idx) := by
  obtain ⟨-, -, -, -, -, -, -, -, -, e0, e1⟩ := blockIndex2 t
  funext a
  apply Fin.ext
  match a with
  | ⟨0, _⟩ => show win2_5.index t (0 : Fin 2) * 5000 + 1 * p.val = P.val; rw [e0, hP]; omega
  | ⟨1, _⟩ => show win2_5.index t (1 : Fin 2) * 128 + 1 * q.val = q.val; rw [e1]; omega

/-- What point t writes back is block t of the whole-array layer of the arrays the call reads. -/
theorem flushed2_eq (c : Dev nD) (t : Fin cfg2.N) :
    (dat2 V c).flushed 5 t = ((cfg2.win 5).blk t).view.read (Elt Ideal)
      (Sage.layer (n := 100000) (d := 128) false (V c main_v64) (V c main_v51) (V c main_v66) (V c main_v68) (V c main_v70)) := by
  show (cfg2.win 5).cut (grid2.coords t) ((dat2 V c).after 5 t) = _
  rw [after2_5]
  unfold out2_5
  rw [View.canon_unit_zero zeroOffsets2]
  simp only [View.ld_unit_zero (S := S5000x128) zeroOffsets2, View.ld_unit_zero (S := S128x128) zeroOffsets2,
    View.ld_unit_zero (S := S128) zeroOffsets1]
  rw [wlBlock2_eq V c t, biasBlock2_eq V c t, wrBlock2_eq V c t]
  refine tile_ext _ _ fun p q => ?_
  have hN : cfg2.N = 20 := N_2
  have ht : t.val < 20 := hN ▸ t.isLt
  have hp : p.val < 5000 := p.isLt
  obtain ⟨P, hP⟩ : ∃ P : Fin 100000, P.val = 5000 * t.val + p.val := ⟨⟨5000 * t.val + p.val, by omega⟩, rfl⟩
  rw [View.read_apply, outBlock2_emb t p q P hP]
  show Gen.k2_pay1 (F := Ideal) (iblk2 V c 1 t) (iblk2 V c 0 t) (V c main_v66) (V c main_v70) (V c main_v68) (ix2 p q) = _
  rw [pay2_apply]
  exact unit_of_rows false _ _ _ _ _ _ _ p P q (fun k => meanBlock2_apply V c t p k P hP) (fun k => xBlock2_apply V c t p k P hP)

/-- An index of the output array is in point t's block iff each coordinate is in the block's range on its axis. -/
theorem mem_outBlock2 (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v71).slice (win2_5.rect t)).set ↔ _
  rw [View.set_slice_whole, Rect.mem_set_unit]
  exact Iff.rfl

/-- Row r of the output array lies in the block of point r / 5000: the twenty blocks cover the array. -/
theorem covered2 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, -, -, -, -, -, e0, e1⟩ := blockIndex2 t
  refine ⟨t, flush2_5 t, ?_⟩
  rw [mem_outBlock2]
  intro a
  match a with
  | ⟨0, _⟩ =>
    show win2_5.index t (0 : Fin 2) * 5000 ≤ (i 0).val ∧ (i 0).val < win2_5.index t (0 : Fin 2) * 5000 + 5000
    rw [e0, ht]; omega
  | ⟨1, _⟩ =>
    show win2_5.index t (1 : Fin 2) * 128 ≤ (i 1).val ∧ (i 1).val < win2_5.index t (1 : Fin 2) * 128 + 128
    rw [e1]; omega

/-- After the last call its output array is the unrectified layer of the arrays the call reads. -/
theorem region2_array (c : Dev nD) :
    (Gen.dat2 (F := Ideal) V c).arrAt 5 cfg2.N
      = Sage.layer (n := 100000) (d := 128) false (V c main_v64) (V c main_v51) (V c main_v66) (V c main_v68) (V c main_v70) :=
  (dat2 V c).arrAt_eq_of_cover 5 _ (fun t _ => flushed2_eq V c t) covered2

end Cert.KernelIdeal.KValue

end
-- ==== Proof.KHostDefs.lean ====
/-
  The host operations of the idealized kernel's program, named as functions.

  Around its three grid launches the program prepares, from the edge array e (two rows of node numbers: sources, then
  destinations), the source and destination index vectors; the in-degree count of every node, a scatter-add of ones
  along the destinations into zeros; and the reciprocal of that count clamped below by 1. Before each launch it gathers
  the current features' rows at the sources (negative numbers wrapped by the node count first), scatter-adds them along
  the destinations into zeros — the in-neighbour sum —, multiplies every row of the sum by the node's reciprocal, and
  cuts the launch's two weight matrices and bias row out of the stacked parameters.

  The gather and the scatter-adds are kept as whole-array terms: nothing here reads them at an index. What is read at an
  index is the product of the sum with the reciprocal column repeated across the features, which is the sum normalised
  by multiplication, entry by entry.
-/
import proofs.«127879_j87591563034885_1_alg».proof.KernelIdeal
import proofs.«127879_j87591563034885_1_alg».proof.Proof.Gen.KernelIdeal
import proofs.«127879_j87591563034885_1_alg».proof.Proof.Spec
import Idealize.ShloMosaic.Lib.Pipeline.Value
import Idealize.ShloMosaic.Lib.ValueIdx

noncomputable section

namespace Cert.KernelIdeal.KValue

open Cert.KernelIdeal Cert.KernelIdeal.Gen Idealize.ShloMosaic Idealize.ShloMosaic.ValueIdx

variable {F : FTy → Type} [FloatOps F]

/-- A vector of node numbers, one per edge; a feature matrix; a value per node. -/
abbrev EdgeVec (F : FTy → Type) := (⟨S1600000, .i32⟩ : BufTy).Contents (Elt F)
abbrev Feat (F : FTy → Type) := (⟨S100000x128, .f32⟩ : BufTy).Contents (Elt F)
abbrev NodeVec (F : FTy → Type) := (⟨S100000, .f32⟩ : BufTy).Contents (Elt F)

/-- Row 0 of the edge array: the edges' sources. -/
def srcIdx (e : (⟨S2x1600000, .i32⟩ : BufTy).Contents (Elt F)) : EdgeVec F :=
  shapeCast _ (extractStridedSlice S1x1600000 ![0, 0] e slices_S2x1600000_S1x1600000_0_0) shapeCasts_S1x1600000_S1600000

/-- Row 1 of the edge array: the edges' destinations. -/
def dstIdx (e : (⟨S2x1600000, .i32⟩ : BufTy).Contents (Elt F)) : EdgeVec F :=
  shapeCast _ (extractStridedSlice S1x1600000 ![1, 0] e slices_S2x1600000_S1x1600000_1_0) shapeCasts_S1x1600000_S1600000

/-- The in-degree of every node: ones scatter-added along the destinations into zeros. -/
def degree (d : EdgeVec F) : NodeVec F :=
  Host.scatterAdd scatter_S100000_S1600000x1_S1600000_n_0_0_1
    (broadcastInDim S100000 ![] bcast_S_S100000 (constant S_ .f32 0x00000000#32))
    (broadcastInDim S1600000x1 ![0] bcast_S1600000_S1600000x1_0 d)
    (broadcastInDim S1600000 ![] bcast_S_S1600000 (constant S_ .f32 0x3F800000#32))

/-- One over the clamped degree. -/
def recip (cnt : NodeVec F) : NodeVec F :=
  Host.divf (broadcastInDim S100000 ![] bcast_S_S100000 (constant S_ .f32 0x3F800000#32))
    (maximumf cnt (broadcastInDim S100000 ![] bcast_S_S100000 (constant S_ .f32 0x3F800000#32)))

/-- The in-neighbour sum of a feature matrix: its rows gathered at the sources (a negative number wrapped by the node
    count), scatter-added along the destinations into zeros. -/
def neighbourSum (s d : EdgeVec F) (h : Feat F) : Feat F :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d)
    (Host.gather gather_S100000x128_S1600000x1_S1600000x128_1_0_n_n_0_1_1128 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- The sum times the per-node value repeated across the features. -/
def scaled (s d : EdgeVec F) (r : NodeVec F) (h : Feat F) : Feat F :=
  mulf (neighbourSum s d h)
    (broadcastInDim S100000x128 ![0, 1] bcast_S100000x1_S100000x128_0_1
      (broadcastInDim S100000x1 ![0] bcast_S100000_S100000x1_0 r))

/-- Matrix k of a stack of three, and row k of a stack of three rows. -/
def slab0 (w : (⟨S3x128x128, .f32⟩ : BufTy).Contents (Elt F)) : (⟨S128x128, .f32⟩ : BufTy).Contents (Elt F) :=
  shapeCast _ (extractStridedSlice S1x128x128 ![0, 0, 0] w slices_S3x128x128_S1x128x128_0_0_0) shapeCasts_S1x128x128_S128x128
def slab1 (w : (⟨S3x128x128, .f32⟩ : BufTy).Contents (Elt F)) : (⟨S128x128, .f32⟩ : BufTy).Contents (Elt F) :=
  shapeCast _ (extractStridedSlice S1x128x128 ![1, 0, 0] w slices_S3x128x128_S1x128x128_1_0_0) shapeCasts_S1x128x128_S128x128
def slab2 (w : (⟨S3x128x128, .f32⟩ : BufTy).Contents (Elt F)) : (⟨S128x128, .f32⟩ : BufTy).Contents (Elt F) :=
  shapeCast _ (extractStridedSlice S1x128x128 ![2, 0, 0] w slices_S3x128x128_S1x128x128_2_0_0) shapeCasts_S1x128x128_S128x128
def row0 (b : (⟨S3x128, .f32⟩ : BufTy).Contents (Elt F)) : (⟨S128, .f32⟩ : BufTy).Contents (Elt F) :=
  shapeCast _ (extractStridedSlice S1x128 ![0, 0] b slices_S3x128_S1x128_0_0) shapeCasts_S1x128_S128
def row1 (b : (⟨S3x128, .f32⟩ : BufTy).Contents (Elt F)) : (⟨S128, .f32⟩ : BufTy).Contents (Elt F) :=
  shapeCast _ (extractStridedSlice S1x128 ![1, 0] b slices_S3x128_S1x128_1_0) shapeCasts_S1x128_S128
def row2 (b : (⟨S3x128, .f32⟩ : BufTy).Contents (Elt F)) : (⟨S128, .f32⟩ : BufTy).Contents (Elt F) :=
  shapeCast _ (extractStridedSlice S1x128 ![2, 0] b slices_S3x128_S1x128_2_0) shapeCasts_S1x128_S128

/-- On the extended reals the sum scaled by the reciprocal of the clamped degree is the sum normalised by
    multiplication: at (p, k) the reciprocal column repeated across the features reads the node's reciprocal. -/
theorem scaled_recip (s d : EdgeVec Ideal) (cnt : NodeVec Ideal) (h : Feat Ideal) :
    scaled s d (recip cnt) h = Sage.meanMul (n := 100000) (d := 128) (neighbourSum s d h) cnt := by
  funext i
  obtain ⟨p, k, rfl⟩ : ∃ (p : Fin 100000) (k : Fin 128), i = ix2 p k := ⟨i 0, i 1, eq_ix2 i⟩
  rw [Sage.meanMul_apply]
  unfold scaled
  rw [mulf_apply]
  refine congrArg (neighbourSum s d h (ix2 p k) * ·) ?_
  rw [broadcastInDim_apply _ bcast_S100000x1_S100000x128_0_1 _ (ix2 p k) (ix2 p (0 : Fin 1)) (fun a => by
        match a with
        | ⟨0, _⟩ => rfl
        | ⟨1, _⟩ => rfl),
      broadcastInDim_apply _ bcast_S100000_S100000x1_0 _ (ix2 p (0 : Fin 1)) (ix1 p) (fun a => by
        match a with
        | ⟨0, _⟩ => rfl)]
  rfl

end Cert.KernelIdeal.KValue

end
-- ==== Proof.KHost0.lean ====
/-
  What the first stretch of host operations leaves in the buffers that are read later.

  From any contents W of the buffers, after the stretch: the first launch's mean operand is the in-neighbour sum of the
  input features scaled by the reciprocal of the clamped in-degree; its weight operands are matrix 0 of each stack and
  row 0 of the biases; the index vectors and the reciprocal, which the later stretches read again, are the named functions
  of the edge array; and the argument arrays are untouched.
-/
import proofs.«127879_j87591563034885_1_alg».proof.Proof.Gen.KernelIdeal.Launch
import proofs.«127879_j87591563034885_1_alg».proof.Proof.KHostDefs
import Idealize.ShloMosaic.Lib.StableHlo.Run

set_option maxRecDepth 8192

noncomputable section

namespace Cert.KernelIdeal.KValue

open Cert.KernelIdeal Cert.KernelIdeal.Gen Idealize.ShloMosaic Idealize.ShloMosaic.TcCoe Idealize.SL.Sem Idealize.ShloMosaic.StableHlo

variable {F : FTy → Type} [FloatOps F] (W : Valuation τ sig (Elt F))

theorem stretch0_src : after (hostOps0 (F := F)) W (Proc.devRef .tc main_v1) = srcIdx (W (Proc.devRef .tc main_arg1)) := by
  after_results_simp <;> rfl
theorem stretch0_dst : after (hostOps0 (F := F)) W (Proc.devRef .tc main_v3) = dstIdx (W (Proc.devRef .tc main_arg1)) := by
  after_results_simp <;> rfl
theorem stretch0_recip : after (hostOps0 (F := F)) W (Proc.devRef .tc main_v11)
    = recip (degree (dstIdx (W (Proc.devRef .tc main_arg1)))) := by
  after_results_simp <;> rfl
theorem stretch0_mean : after (hostOps0 (F := F)) W (Proc.devRef .tc main_v24)
    = scaled (srcIdx (W (Proc.devRef .tc main_arg1))) (dstIdx (W (Proc.devRef .tc main_arg1)))
        (recip (degree (dstIdx (W (Proc.devRef .tc main_arg1))))) (W (Proc.devRef .tc main_arg0)) := by
  after_results_simp <;> rfl
theorem stretch0_wl : after (hostOps0 (F := F)) W (Proc.devRef .tc main_v26) = slab0 (W (Proc.devRef .tc main_arg2)) := by
  after_results_simp <;> rfl
theorem stretch0_bl : after (hostOps0 (F := F)) W (Proc.devRef .tc main_v28) = row0 (W (Proc.devRef .tc main_arg3)) := by
  after_results_simp <;> rfl
theorem stretch0_wr : after (hostOps0 (F := F)) W (Proc.devRef .tc main_v30) = slab0 (W (Proc.devRef .tc main_arg4)) := by
  after_results_simp <;> rfl
theorem stretch0_arg0 : after (hostOps0 (F := F)) W (Proc.devRef .tc main_arg0) = W (Proc.devRef .tc main_arg0) := by
  after_results_simp <;> rfl
theorem stretch0_arg2 : after (hostOps0 (F := F)) W (Proc.devRef .tc main_arg2) = W (Proc.devRef .tc main_arg2) := by
  after_results_simp <;> rfl
theorem stretch0_arg3 : after (hostOps0 (F := F)) W (Proc.devRef .tc main_arg3) = W (Proc.devRef .tc main_arg3) := by
  after_results_simp <;> rfl
theorem stretch0_arg4 : after (hostOps0 (F := F)) W (Proc.devRef .tc main_arg4) = W (Proc.devRef .tc main_arg4) := by
  after_results_simp <;> rfl

end Cert.KernelIdeal.KValue

end
-- ==== Proof.KHost1.lean ====
/-
  What the second stretch of host operations leaves in the buffers that are read later.

  From any contents W of the buffers, after the stretch: the second launch's mean operand is the in-neighbour sum of the
  first launch's output scaled by the per-node value the first stretch left (read through W, whatever it is); its weight
  operands are matrix 1 of each stack and row 1 of the biases; the first launch's output, the index vectors, the per-node
  value and the stacked parameters are untouched.
-/
import proofs.«127879_j87591563034885_1_alg».proof.Proof.Gen.KernelIdeal.Launch
import proofs.«127879_j87591563034885_1_alg».proof.Proof.KHostDefs
import Idealize.ShloMosaic.Lib.StableHlo.Run

set_option maxRecDepth 8192

noncomputable section

namespace Cert.KernelIdeal.KValue

open Cert.KernelIdeal Cert.KernelIdeal.Gen Idealize.ShloMosaic Idealize.ShloMosaic.TcCoe Idealize.SL.Sem Idealize.ShloMosaic.StableHlo

variable {F : FTy → Type} [FloatOps F] (W : Valuation τ sig (Elt F))

theorem stretch1_mean : after (hostOps1 (F := F)) W (Proc.devRef .tc main_v44)
    = scaled (W (Proc.devRef .tc main_v1)) (W (Proc.devRef .tc main_v3)) (W (Proc.devRef .tc main_v11))
        (W (Proc.devRef .tc main_v31)) := by
  after_results_simp <;> rfl
theorem stretch1_wl : after (hostOps1 (F := F)) W (Proc.devRef .tc main_v46) = slab1 (W (Proc.devRef .tc main_arg2)) := by
  after_results_simp <;> rfl
theorem stretch1_bl : after (hostOps1 (F := F)) W (Proc.devRef .tc main_v48) = row1 (W (Proc.devRef .tc main_arg3)) := by
  after_results_simp <;> rfl
theorem stretch1_wr : after (hostOps1 (F := F)) W (Proc.devRef .tc main_v50) = slab1 (W (Proc.devRef .tc main_arg4)) := by
  after_results_simp <;> rfl
theorem stretch1_feat : after (hostOps1 (F := F)) W (Proc.devRef .tc main_v31) = W (Proc.devRef .tc main_v31) := by
  after_results_simp <;> rfl
theorem stretch1_src : after (hostOps1 (F := F)) W (Proc.devRef .tc main_v1) = W (Proc.devRef .tc main_v1) := by
  after_results_simp <;> rfl
theorem stretch1_dst : after (hostOps1 (F := F)) W (Proc.devRef .tc main_v3) = W (Proc.devRef .tc main_v3) := by
  after_results_simp <;> rfl
theorem stretch1_recip : after (hostOps1 (F := F)) W (Proc.devRef .tc main_v11) = W (Proc.devRef .tc main_v11) := by
  after_results_simp <;> rfl
theorem stretch1_arg2 : after (hostOps1 (F := F)) W (Proc.devRef .tc main_arg2) = W (Proc.devRef .tc main_arg2) := by
  after_results_simp <;> rfl
theorem stretch1_arg3 : after (hostOps1 (F := F)) W (Proc.devRef .tc main_arg3) = W (Proc.devRef .tc main_arg3) := by
  after_results_simp <;> rfl
theorem stretch1_arg4 : after (hostOps1 (F := F)) W (Proc.devRef .tc main_arg4) = W (Proc.devRef .tc main_arg4) := by
  after_results_simp <;> rfl

end Cert.KernelIdeal.KValue

end
-- ==== Proof.KHost2.lean ====
/-
  What the third stretch of host operations leaves in the buffers the last launch reads.

  From any contents W of the buffers, after the stretch: the last launch's mean operand is the in-neighbour sum of the
  second launch's output scaled by the per-node value the first stretch left (read through W); its weight operands are
  matrix 2 of each stack and row 2 of the biases; the second launch's output is untouched.
-/
import proofs.«127879_j87591563034885_1_alg».proof.Proof.Gen.KernelIdeal.Launch
import proofs.«127879_j87591563034885_1_alg».proof.Proof.KHostDefs
import Idealize.ShloMosaic.Lib.StableHlo.Run

set_option maxRecDepth 8192

noncomputable section

namespace Cert.KernelIdeal.KValue

open Cert.KernelIdeal Cert.KernelIdeal.Gen Idealize.ShloMosaic Idealize.ShloMosaic.TcCoe Idealize.SL.Sem Idealize.ShloMosaic.StableHlo

variable {F : FTy → Type} [FloatOps F] (W : Valuation τ sig (Elt F))

theorem stretch2_mean : after (hostOps2 (F := F)) W (Proc.devRef .tc main_v64)
    = scaled (W (Proc.devRef .tc main_v1)) (W (Proc.devRef .tc main_v3)) (W (Proc.devRef .tc main_v11))
        (W (Proc.devRef .tc main_v51)) := by
  after_results_simp <;> rfl
theorem stretch2_wl : after (hostOps2 (F := F)) W (Proc.devRef .tc main_v66) = slab2 (W (Proc.devRef .tc main_arg2)) := by
  after_results_simp <;> rfl
theorem stretch2_bl : after (hostOps2 (F := F)) W (Proc.devRef .tc main_v68) = row2 (W (Proc.devRef .tc main_arg3)) := by
  after_results_simp <;> rfl
theorem stretch2_wr : after (hostOps2 (F := F)) W (Proc.devRef .tc main_v70) = slab2 (W (Proc.devRef .tc main_arg4)) := by
  after_results_simp <;> rfl
theorem stretch2_feat : after (hostOps2 (F := F)) W (Proc.devRef .tc main_v51) = W (Proc.devRef .tc main_v51) := by
  after_results_simp <;> rfl

end Cert.KernelIdeal.KValue

end
-- ==== Proof.KFold.lean ====
/-
  The result of the idealized kernel's program as three layers of the specification.

  The buffer contents are folded through the program's six segments. A launch leaves its output array at the layer
  function of the five arrays it read (assumed here of each launch, for any entry contents; proved beside this module
  from the launch's twenty grid points) and every other buffer as entered; a host stretch leaves the next launch's mean
  operand at the in-neighbour sum of the previous output scaled by the reciprocal of the clamped in-degree, its weight
  operands at the next matrices and bias row, and everything read later untouched. The index vectors, the reciprocal
  and the stacked parameters are therefore the same functions of the argument arrays at every stretch, and the result
  buffer ends at the three-layer network over the multiplying normalisation.
-/
import proofs.«127879_j87591563034885_1_alg».proof.Proof.Gen.KernelIdeal.Frame
import proofs.«127879_j87591563034885_1_alg».proof.Proof.KHost0
import proofs.«127879_j87591563034885_1_alg».proof.Proof.KHost1
import proofs.«127879_j87591563034885_1_alg».proof.Proof.KHost2

set_option maxRecDepth 16384

noncomputable section

namespace Cert.KernelIdeal.KValue

open Cert.KernelIdeal Cert.KernelIdeal.Gen Idealize.ShloMosaic Idealize.ShloMosaic.TcCoe Idealize.SL.Sem
open Idealize.ShloMosaic.Pipeline (Dat)

/-- Equal operands give equal layers. -/
theorem layer_congr {n d : ℕ} (relu : Bool) {a a' h h' : MeanLayer.Mat n d} {wl wl' wr wr' : MeanLayer.Mat d d}
    {b b' : MeanLayer.Row d} (ea : a = a') (eh : h = h') (el : wl = wl') (eb : b = b') (er : wr = wr') :
    Sage.layer relu a h wl b wr = Sage.layer relu a' h' wl' b' wr' := by
  subst ea eh el eb er; rfl

variable (m : (ℓ : Loc nD τ sig) → Buf (Elt Ideal) ℓ) (ρ : Dev nD → PrngReg) (c : Dev nD)

/-- What each launch leaves in its output array, for any contents V at its entry: the layer function of the arrays it
    read. -/
abbrev Launch0 : Prop := ∀ (V : (c : Dev nD) → (b : Ref sig .tc) → Buf (Elt Ideal) ((c : Thread nD τ).loc b)) (c : Dev nD),
  (dat0 (F := Ideal) V c).arrAt 5 cfg0.N
    = Sage.layer (n := 100000) (d := 128) true (V c main_v24) (V c main_arg0) (V c main_v26) (V c main_v28) (V c main_v30)
abbrev Launch1 : Prop := ∀ (V : (c : Dev nD) → (b : Ref sig .tc) → Buf (Elt Ideal) ((c : Thread nD τ).loc b)) (c : Dev nD),
  (dat1 (F := Ideal) V c).arrAt 5 cfg1.N
    = Sage.layer (n := 100000) (d := 128) true (V c main_v44) (V c main_v31) (V c main_v46) (V c main_v48) (V c main_v50)
abbrev Launch2 : Prop := ∀ (V : (c : Dev nD) → (b : Ref sig .tc) → Buf (Elt Ideal) ((c : Thread nD τ).loc b)) (c : Dev nD),
  (dat2 (F := Ideal) V c).arrAt 5 cfg2.N
    = Sage.layer (n := 100000) (d := 128) false (V c main_v64) (V c main_v51) (V c main_v66) (V c main_v68) (V c main_v70)

/-- The argument arrays as launched. -/
abbrev X := m ((c : Thread nD τ).loc main_arg0)
abbrev E := m ((c : Thread nD τ).loc main_arg1)
abbrev WL := m ((c : Thread nD τ).loc main_arg2)
abbrev B := m ((c : Thread nD τ).loc main_arg3)
abbrev WR := m ((c : Thread nD τ).loc main_arg4)

/-- The normalised in-neighbour sum of a feature matrix, over the program's edge array. -/
def meanOf (h : Feat Ideal) : MeanLayer.Mat 100000 128 :=
  Sage.meanMul (n := 100000) (d := 128) (neighbourSum (srcIdx (E m c)) (dstIdx (E m c)) h) (degree (dstIdx (E m c)))

/-- The first, second and third layers' outputs. -/
def h1 : MeanLayer.Mat 100000 128 :=
  Sage.layer true (meanOf m c (X m c)) (X m c) (slab0 (WL m c)) (row0 (B m c)) (slab0 (WR m c))
def h2 : MeanLayer.Mat 100000 128 :=
  Sage.layer true (meanOf m c (h1 m c)) (h1 m c) (slab1 (WL m c)) (row1 (B m c)) (slab1 (WR m c))
def h3 : MeanLayer.Mat 100000 128 :=
  Sage.layer false (meanOf m c (h2 m c)) (h2 m c) (slab2 (WL m c)) (row2 (B m c)) (slab2 (WR m c))

theorem h3_eq_net : h3 m c = Sage.net (n := 100000) (d := 128) (meanOf m c) (X m c)
    (slab0 (WL m c)) (row0 (B m c)) (slab0 (WR m c)) (slab1 (WL m c)) (row1 (B m c)) (slab1 (WR m c))
    (slab2 (WL m c)) (row2 (B m c)) (slab2 (WR m c)) := rfl

/-! ## After the first stretch and the first launch -/

theorem at2_src : W2 m ρ c (Proc.devRef .tc main_v1) = srcIdx (E m c) :=
  (W2_of_ne m ρ c main_v1 (by decide)).trans (stretch0_src (W0 m ρ c))
theorem at2_dst : W2 m ρ c (Proc.devRef .tc main_v3) = dstIdx (E m c) :=
  (W2_of_ne m ρ c main_v3 (by decide)).trans (stretch0_dst (W0 m ρ c))
theorem at2_recip : W2 m ρ c (Proc.devRef .tc main_v11) = recip (degree (dstIdx (E m c))) :=
  (W2_of_ne m ρ c main_v11 (by decide)).trans (stretch0_recip (W0 m ρ c))
theorem at2_arg2 : W2 m ρ c (Proc.devRef .tc main_arg2) = WL m c :=
  (W2_of_ne m ρ c main_arg2 (by decide)).trans (stretch0_arg2 (W0 m ρ c))
theorem at2_arg3 : W2 m ρ c (Proc.devRef .tc main_arg3) = B m c :=
  (W2_of_ne m ρ c main_arg3 (by decide)).trans (stretch0_arg3 (W0 m ρ c))
theorem at2_arg4 : W2 m ρ c (Proc.devRef .tc main_arg4) = WR m c :=
  (W2_of_ne m ρ c main_arg4 (by decide)).trans (stretch0_arg4 (W0 m ρ c))

theorem out0 (L0 : Launch0) : W2 m ρ c (Proc.devRef .tc main_v31) = h1 m c :=
  (W2_arr m ρ c 5).trans ((L0 (V1 m ρ) c).trans (layer_congr true
    ((stretch0_mean (W0 m ρ c)).trans (scaled_recip _ _ _ _)) (stretch0_arg0 (W0 m ρ c))
    (stretch0_wl (W0 m ρ c)) (stretch0_bl (W0 m ρ c)) (stretch0_wr (W0 m ρ c))))

/-! ## After the second stretch and the second launch -/

theorem in1_mean (L0 : Launch0) : W3 m ρ c (Proc.devRef .tc main_v44) = meanOf m c (h1 m c) :=
  (stretch1_mean (W2 m ρ c)).trans (by
    rw [at2_src, at2_dst, at2_recip, out0 m ρ c L0]; exact scaled_recip _ _ _ _)
theorem in1_feat (L0 : Launch0) : W3 m ρ c (Proc.devRef .tc main_v31) = h1 m c :=
  (stretch1_feat (W2 m ρ c)).trans (out0 m ρ c L0)
theorem in1_wl : W3 m ρ c (Proc.devRef .tc main_v46) = slab1 (WL m c) :=
  (stretch1_wl (W2 m ρ c)).trans (congrArg slab1 (at2_arg2 m ρ c))
theorem in1_bl : W3 m ρ c (Proc.devRef .tc main_v48) = row1 (B m c) :=
  (stretch1_bl (W2 m ρ c)).trans (congrArg row1 (at2_arg3 m ρ c))
theorem in1_wr : W3 m ρ c (Proc.devRef .tc main_v50) = slab1 (WR m c) :=
  (stretch1_wr (W2 m ρ c)).trans (congrArg slab1 (at2_arg4 m ρ c))

theorem at4_src : W4 m ρ c (Proc.devRef .tc main_v1) = srcIdx (E m c) :=
  (W4_of_ne m ρ c main_v1 (by decide)).trans ((stretch1_src (W2 m ρ c)).trans (at2_src m ρ c))
theorem at4_dst : W4 m ρ c (Proc.devRef .tc main_v3) = dstIdx (E m c) :=
  (W4_of_ne m ρ c main_v3 (by decide)).trans ((stretch1_dst (W2 m ρ c)).trans (at2_dst m ρ c))
theorem at4_recip : W4 m ρ c (Proc.devRef .tc main_v11) = recip (degree (dstIdx (E m c))) :=
  (W4_of_ne m ρ c main_v11 (by decide)).trans ((stretch1_recip (W2 m ρ c)).trans (at2_recip m ρ c))
theorem at4_arg2 : W4 m ρ c (Proc.devRef .tc main_arg2) = WL m c :=
  (W4_of_ne m ρ c main_arg2 (by decide)).trans ((stretch1_arg2 (W2 m ρ c)).trans (at2_arg2 m ρ c))
theorem at4_arg3 : W4 m ρ c (Proc.devRef .tc main_arg3) = B m c :=
  (W4_of_ne m ρ c main_arg3 (by decide)).trans ((stretch1_arg3 (W2 m ρ c)).trans (at2_arg3 m ρ c))
theorem at4_arg4 : W4 m ρ c (Proc.devRef .tc main_arg4) = WR m c :=
  (W4_of_ne m ρ c main_arg4 (by decide)).trans ((stretch1_arg4 (W2 m ρ c)).trans (at2_arg4 m ρ c))

theorem out1 (L0 : Launch0) (L1 : Launch1) : W4 m ρ c (Proc.devRef .tc main_v51) = h2 m c :=
  (W4_arr m ρ c 5).trans ((L1 (V3 m ρ) c).trans (layer_congr true
    (in1_mean m ρ c L0) (in1_feat m ρ c L0) (in1_wl m ρ c) (in1_bl m ρ c) (in1_wr m ρ c)))

/-! ## After the third stretch and the last launch -/

theorem in2_mean (L0 : Launch0) (L1 : Launch1) : W5 m ρ c (Proc.devRef .tc main_v64) = meanOf m c (h2 m c) :=
  (stretch2_mean (W4 m ρ c)).trans (by
    rw [at4_src, at4_dst, at4_recip, out1 m ρ c L0 L1]; exact scaled_recip _ _ _ _)
theorem in2_feat (L0 : Launch0) (L1 : Launch1) : W5 m ρ c (Proc.devRef .tc main_v51) = h2 m c :=
  (stretch2_feat (W4 m ρ c)).trans (out1 m ρ c L0 L1)
theorem in2_wl : W5 m ρ c (Proc.devRef .tc main_v66) = slab2 (WL m c) :=
  (stretch2_wl (W4 m ρ c)).trans (congrArg slab2 (at4_arg2 m ρ c))
theorem in2_bl : W5 m ρ c (Proc.devRef .tc main_v68) = row2 (B m c) :=
  (stretch2_bl (W4 m ρ c)).trans (congrArg row2 (at4_arg3 m ρ c))
theorem in2_wr : W5 m ρ c (Proc.devRef .tc main_v70) = slab2 (WR m c) :=
  (stretch2_wr (W4 m ρ c)).trans (congrArg slab2 (at4_arg4 m ρ c))

/-- The result buffer's last contents: the three-layer network of the argument arrays. -/
theorem result (L0 : Launch0) (L1 : Launch1) (L2 : Launch2) :
    W6 m ρ c (Proc.devRef .tc main_v71) = Sage.net (n := 100000) (d := 128) (meanOf m c) (X m c)
      (slab0 (WL m c)) (row0 (B m c)) (slab0 (WR m c)) (slab1 (WL m c)) (row1 (B m c)) (slab1 (WR m c))
      (slab2 (WL m c)) (row2 (B m c)) (slab2 (WR m c)) :=
  (W6_arr m ρ c 5).trans ((L2 (V5 m ρ) c).trans ((layer_congr false
    (in2_mean m ρ c L0 L1) (in2_feat m ρ c L0 L1) (in2_wl m ρ c) (in2_bl m ρ c) (in2_wr m ρ c)).trans (h3_eq_net m c)))

end Cert.KernelIdeal.KValue

end
-- ==== Proof.RefLayers.lean ====
/-
  The reference program's result, stage by stage, is three layers of one specification.

  Each layer of the reference gathers the rows of a node-feature matrix h along the edges' source column, adds them
  into a zero matrix at the edges' destination column (the in-neighbour sum of h), adds ones into a zero vector at the
  same destination column (the in-degree), clamps the degree below by 1, divides every row of the sum by its node's
  clamped degree, and then forms, at node p and feature q,

      ( ( Σ_k mean(p,k)·W_l(k,q) + b(q) ) + Σ_k h(p,k)·W_r(k,q) ) + h(p,q),

  rectified against the zero word on the first two layers. The gather and the two scatter-adds are kept as whole
  arrays: nothing is said about their entries, only that every layer builds them from the same edge columns, so
  the in-neighbour sum is one function `agg` of the feature matrix and the in-degree is one vector.

  Reading each stage at an index (p, q) through the generated per-stage equations turns the two contractions into
  sums over the 128 features, the two-step broadcasts of the degree and of the bias into reads at p and at q, and
  the entrywise operations into the operations of the extended reals; what is left is the specification's unit
  (p, q), term for term. Layer 2 repeats this on layer 1's output and layer 3 on layer 2's; substituting gives the
  three-layer network.
-/
import proofs.«127879_j87591563034885_1_alg».proof.Proof.Gen.ReferenceIdeal.Read
import proofs.«127879_j87591563034885_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

variable (x0 : (⟨S100000x128, .f32⟩ : BufTy).Contents (Elt Ideal)) (x1 : (⟨S2x1600000, .i32⟩ : BufTy).Contents (Elt Ideal))
  (x2 : (⟨S3x128x128, .f32⟩ : BufTy).Contents (Elt Ideal)) (x3 : (⟨S3x128, .f32⟩ : BufTy).Contents (Elt Ideal))
  (x4 : (⟨S3x128x128, .f32⟩ : BufTy).Contents (Elt Ideal))

/-- The in-neighbour sum of a feature matrix `h`, in the reference's spelling: the rows of `h` gathered along the
    edges' source column and added into the zero matrix at the edges' destination column (layer 1's buffers). -/
def agg (x1 : (⟨S2x1600000, .i32⟩ : BufTy).Contents (Elt Ideal)) (h : (⟨S100000x128, .f32⟩ : BufTy).Contents (Elt Ideal)) :
    (⟨S100000x128, .f32⟩ : BufTy).Contents (Elt Ideal) :=
  Host.scatterAdd (F := Ideal) (φ := .f32) scatter_S100000x128_S1600000x1_S1600000x128_1_0_0_1 (val_main_v17 (F := Ideal))
    (val_main_v18 (F := Ideal) x1)
    (Host.gather gather_S100000x128_S1600000x1_S1600000x128_1_0_n_n_0_1_1128 h (val_main_v15 (F := Ideal) x1))

/-- A layer from its stages read at an index: if `d1` is the contraction of `mean` with `wl`, `bb` the bias row
    repeated down the nodes, `d2` the contraction of `h` with `wr`, and `out` the activation of
    `((d1 + bb) + d2) + h` entry by entry, then `out` is the specification's layer. -/
theorem layer_of_reads (relu : Bool)
    (out d1 bb d2 mean h : (⟨S100000x128, .f32⟩ : BufTy).Contents (Elt Ideal))
    (wl wr : (⟨S128x128, .f32⟩ : BufTy).Contents (Elt Ideal)) (b : (⟨S128, .f32⟩ : BufTy).Contents (Elt Ideal))
    (hd1 : ∀ i, d1 i = ∑ k : Fin 128, mean (lidx_main_v29 i k) * wl (ridx_main_v29 i k))
    (hbb : ∀ i, bb i = b (idx_main_v30 (idx_main_v31 i)))
    (hd2 : ∀ i, d2 i = ∑ k : Fin 128, h (lidx_main_v33 i k) * wr (ridx_main_v33 i k))
    (hout : ∀ i, out i = Sage.act relu (((d1 i + bb i) + d2 i) + h i)) :
    out = Sage.layer (n := 100000) (d := 128) relu mean h wl b wr := by
  funext i
  obtain ⟨p, q, rfl⟩ : ∃ (p : Fin 100000) (q : Fin 128), i = ix2 p q := ⟨i 0, i 1, eq_ix2 i⟩
  have eb : idx_main_v30 (idx_main_v31 (ix2 p q)) = ix1 q :=
    funext fun a => Fin.ext (by match a with | ⟨0, _⟩ => rfl)
  have el : ∀ k : Fin 128, lidx_main_v29 (ix2 p q) k = ix2 p k := fun k =>
    funext fun a => Fin.ext (by match a with | ⟨0, _⟩ => rfl | ⟨1, _⟩ => rfl)
  have er : ∀ k : Fin 128, ridx_main_v29 (ix2 p q) k = ix2 k q := fun k =>
    funext fun a => Fin.ext (by match a with | ⟨0, _⟩ => rfl | ⟨1, _⟩ => rfl)
  have el' : ∀ k : Fin 128, lidx_main_v33 (ix2 p q) k = ix2 p k := fun k =>
    funext fun a => Fin.ext (by match a with | ⟨0, _⟩ => rfl | ⟨1, _⟩ => rfl)
  have er' : ∀ k : Fin 128, ridx_main_v33 (ix2 p q) k = ix2 k q := fun k =>
    funext fun a => Fin.ext (by match a with | ⟨0, _⟩ => rfl | ⟨1, _⟩ => rfl)
  have s1 : (∑ k : Fin 128, mean (lidx_main_v29 (ix2 p q) k) * wl (ridx_main_v29 (ix2 p q) k))
      = ∑ k : Fin 128, mean (ix2 p k) * wl (ix2 k q) :=
    Finset.sum_congr rfl fun k _ => by rw [el k, er k]
  have s2 : (∑ k : Fin 128, h (lidx_main_v33 (ix2 p q) k) * wr (ridx_main_v33 (ix2 p q) k))
      = ∑ k : Fin 128, h (ix2 p k) * wr (ix2 k q) :=
    Finset.sum_congr rfl fun k _ => by rw [el' k, er' k]
  rw [Sage.layer_apply, hout, hd1, hbb, hd2, eb, s1, s2]
  rfl

/-- The normalised neighbour sum from its stages read at an index: if `bc` is the degree clamped below by the word of
    1.0 and repeated along each row, and `m` is `aggv` divided by `bc` entry by entry, then `m` is the specification's
    dividing normalisation of `aggv` by the degree. -/
theorem mean_of_reads (m aggv bc : (⟨S100000x128, .f32⟩ : BufTy).Contents (Elt Ideal))
    (cnt : (⟨S100000, .f32⟩ : BufTy).Contents (Elt Ideal))
    (hm : ∀ i, m i = Ideal.div (aggv i) (bc i))
    (hbc : ∀ i, bc i = max (cnt (idx_main_v26 (idx_main_v27 i))) Sage.one) :
    m = Sage.meanDiv (n := 100000) (d := 128) aggv cnt := by
  funext i
  obtain ⟨p, k, rfl⟩ : ∃ (p : Fin 100000) (k : Fin 128), i = ix2 p k := ⟨i 0, i 1, eq_ix2 i⟩
  have e : idx_main_v26 (idx_main_v27 (ix2 p k)) = ix1 p :=
    funext fun a => Fin.ext (by match a with | ⟨0, _⟩ => rfl)
  rw [Sage.meanDiv_apply, hm, hbc, e]

/-! ## Layer 1 -/

theorem agg1 : val_main_v19 (F := Ideal) x0 x1 = agg x1 x0 := by
  unfold val_main_v19 val_main_v16 agg
  rfl

theorem mean1 : val_main_v28 (F := Ideal) x0 x1
    = Sage.meanDiv (n := 100000) (d := 128) (agg x1 x0) (val_main_v23 (F := Ideal) x1) := by
  rw [← agg1]
  exact mean_of_reads _ _ (val_main_v27 (F := Ideal) x1) _ (val_main_v28_apply x0 x1) fun i => by
    rewrite [val_main_v27_apply, val_main_v26_apply, val_main_v25_apply, val_main_v24_apply, val_main_cst_3_apply,
      Ideal.maximumf_def, Ideal.ofBits_def]
    rfl

theorem layer1 : val_main_v36 (F := Ideal) x0 x1 x2 x3 x4
    = Sage.layer (n := 100000) (d := 128) true (Sage.meanDiv (agg x1 x0) (val_main_v23 (F := Ideal) x1)) x0
        (val_main_v5 (F := Ideal) x2) (val_main_v7 (F := Ideal) x3) (val_main_v9 (F := Ideal) x4) := by
  rw [← mean1]
  exact layer_of_reads true _ (val_main_v29 (F := Ideal) x0 x1 x2) (val_main_v31 (F := Ideal) x3)
    (val_main_v33 (F := Ideal) x0 x4) _ _ _ _ _ (val_main_v29_apply x0 x1 x2)
    (fun i => by rewrite [val_main_v31_apply, val_main_v30_apply]; rfl) (val_main_v33_apply x0 x4) fun i => by
      rewrite [val_main_v36_apply, val_main_v35_apply, val_main_v34_apply, val_main_v32_apply, val_main_call0_v0_apply,
        val_main_call0_cst_apply, Sage.act_true, Ideal.maximumf_def, Ideal.addf_def, Ideal.addf_def, Ideal.addf_def,
        Ideal.ofBits_def]
      rfl

/-! ## Layer 2: its own copies of the zero matrix, the two edge columns and the degree are layer 1's -/

theorem zeros2 : val_main_v50 (F := Ideal) = val_main_v17 (F := Ideal) := by
  unfold val_main_v50 val_main_cst_6 val_main_v17 val_main_cst
  rfl

theorem dst2 : val_main_v51 (F := Ideal) x1 = val_main_v18 (F := Ideal) x1 := by
  unfold val_main_v51 val_main_v18
  rfl

theorem src2 : val_main_v48 (F := Ideal) x1 = val_main_v15 (F := Ideal) x1 := by
  unfold val_main_v48 val_main_v47 val_main_v44 val_main_v43 val_main_c_4 val_main_v46 val_main_v45 val_main_c_5
    val_main_v15 val_main_v14 val_main_v11 val_main_v10 val_main_c val_main_v13 val_main_v12 val_main_c_0
  rfl

theorem cnt2 : val_main_v56 (F := Ideal) x1 = val_main_v23 (F := Ideal) x1 := by
  unfold val_main_v56 val_main_v55 val_main_v54 val_main_cst_8 val_main_v53 val_main_cst_7
    val_main_v23 val_main_v22 val_main_v21 val_main_cst_2 val_main_v20 val_main_cst_1
  rfl

theorem agg2 : val_main_v52 (F := Ideal) x0 x1 x2 x3 x4 = agg x1 (val_main_v36 (F := Ideal) x0 x1 x2 x3 x4) := by
  unfold val_main_v52 val_main_v49 agg
  rw [zeros2, dst2, src2]

theorem mean2 : val_main_v61 (F := Ideal) x0 x1 x2 x3 x4
    = Sage.meanDiv (n := 100000) (d := 128) (agg x1 (val_main_v36 (F := Ideal) x0 x1 x2 x3 x4)) (val_main_v23 (F := Ideal) x1) := by
  rw [← agg2]
  exact mean_of_reads _ _ (val_main_v60 (F := Ideal) x1) _ (val_main_v61_apply x0 x1 x2 x3 x4) fun i => by
    rewrite [val_main_v60_apply, val_main_v59_apply, val_main_v58_apply, val_main_v57_apply, val_main_cst_9_apply, cnt2,
      Ideal.maximumf_def, Ideal.ofBits_def]
    rfl

theorem layer2 : val_main_v69 (F := Ideal) x0 x1 x2 x3 x4
    = Sage.layer (n := 100000) (d := 128) true
        (Sage.meanDiv (agg x1 (val_main_v36 (F := Ideal) x0 x1 x2 x3 x4)) (val_main_v23 (F := Ideal) x1))
        (val_main_v36 (F := Ideal) x0 x1 x2 x3 x4)
        (val_main_v38 (F := Ideal) x2) (val_main_v40 (F := Ideal) x3) (val_main_v42 (F := Ideal) x4) := by
  rw [← mean2]
  exact layer_of_reads true _ (val_main_v62 (F := Ideal) x0 x1 x2 x3 x4) (val_main_v64 (F := Ideal) x3)
    (val_main_v66 (F := Ideal) x0 x1 x2 x3 x4) _ _ _ _ _ (val_main_v62_apply x0 x1 x2 x3 x4)
    (fun i => by rewrite [val_main_v64_apply, val_main_v63_apply]; rfl) (val_main_v66_apply x0 x1 x2 x3 x4) fun i => by
      rewrite [val_main_v69_apply, val_main_v68_apply, val_main_v67_apply, val_main_v65_apply, val_main_call1_v0_apply,
        val_main_call1_cst_apply, Sage.act_true, Ideal.maximumf_def, Ideal.addf_def, Ideal.addf_def, Ideal.addf_def,
        Ideal.ofBits_def]
      rfl

/-! ## Layer 3: the same, without the rectification -/

theorem zeros3 : val_main_v83 (F := Ideal) = val_main_v17 (F := Ideal) := by
  unfold val_main_v83 val_main_cst_12 val_main_v17 val_main_cst
  rfl

theorem dst3 : val_main_v84 (F := Ideal) x1 = val_main_v18 (F := Ideal) x1 := by
  unfold val_main_v84 val_main_v18
  rfl

theorem src3 : val_main_v81 (F := Ideal) x1 = val_main_v15 (F := Ideal) x1 := by
  unfold val_main_v81 val_main_v80 val_main_v77 val_main_v76 val_main_c_10 val_main_v79 val_main_v78 val_main_c_11
    val_main_v15 val_main_v14 val_main_v11 val_main_v10 val_main_c val_main_v13 val_main_v12 val_main_c_0
  rfl

theorem cnt3 : val_main_v89 (F := Ideal) x1 = val_main_v23 (F := Ideal) x1 := by
  unfold val_main_v89 val_main_v88 val_main_v87 val_main_cst_14 val_main_v86 val_main_cst_13
    val_main_v23 val_main_v22 val_main_v21 val_main_cst_2 val_main_v20 val_main_cst_1
  rfl

theorem agg3 : val_main_v85 (F := Ideal) x0 x1 x2 x3 x4 = agg x1 (val_main_v69 (F := Ideal) x0 x1 x2 x3 x4) := by
  unfold val_main_v85 val_main_v82 agg
  rw [zeros3, dst3, src3]

theorem mean3 : val_main_v94 (F := Ideal) x0 x1 x2 x3 x4
    = Sage.meanDiv (n := 100000) (d := 128) (agg x1 (val_main_v69 (F := Ideal) x0 x1 x2 x3 x4)) (val_main_v23 (F := Ideal) x1) := by
  rw [← agg3]
  exact mean_of_reads _ _ (val_main_v93 (F := Ideal) x1) _ (val_main_v94_apply x0 x1 x2 x3 x4) fun i => by
    rewrite [val_main_v93_apply, val_main_v92_apply, val_main_v91_apply, val_main_v90_apply, val_main_cst_15_apply, cnt3,
      Ideal.maximumf_def, Ideal.ofBits_def]
    rfl

theorem layer3 : val_main_v101 (F := Ideal) x0 x1 x2 x3 x4
    = Sage.layer (n := 100000) (d := 128) false
        (Sage.meanDiv (agg x1 (val_main_v69 (F := Ideal) x0 x1 x2 x3 x4)) (val_main_v23 (F := Ideal) x1))
        (val_main_v69 (F := Ideal) x0 x1 x2 x3 x4)
        (val_main_v71 (F := Ideal) x2) (val_main_v73 (F := Ideal) x3) (val_main_v75 (F := Ideal) x4) := by
  rw [← mean3]
  exact layer_of_reads false _ (val_main_v95 (F := Ideal) x0 x1 x2 x3 x4) (val_main_v97 (F := Ideal) x3)
    (val_main_v99 (F := Ideal) x0 x1 x2 x3 x4) _ _ _ _ _ (val_main_v95_apply x0 x1 x2 x3 x4)
    (fun i => by rewrite [val_main_v97_apply, val_main_v96_apply]; rfl) (val_main_v99_apply x0 x1 x2 x3 x4) fun i => by
      rewrite [val_main_v101_apply, val_main_v100_apply, val_main_v98_apply, Sage.act_false, Ideal.addf_def,
        Ideal.addf_def, Ideal.addf_def]
      rfl

/-! ## The three layers composed -/

theorem result : val_main_v101 (F := Ideal) x0 x1 x2 x3 x4
    = Sage.net (n := 100000) (d := 128) (fun h => Sage.meanDiv (agg x1 h) (val_main_v23 (F := Ideal) x1)) x0
        (val_main_v5 (F := Ideal) x2) (val_main_v7 (F := Ideal) x3) (val_main_v9 (F := Ideal) x4)
        (val_main_v38 (F := Ideal) x2) (val_main_v40 (F := Ideal) x3) (val_main_v42 (F := Ideal) x4)
        (val_main_v71 (F := Ideal) x2) (val_main_v73 (F := Ideal) x3) (val_main_v75 (F := Ideal) x4) := by
  rw [layer3, layer2, layer1]
  unfold Sage.net
  rfl

end Cert.ReferenceIdeal.RefValue

end
-- ==== Proof.Join.lean ====
/-
  The two programs compute one function of the argument arrays.

  The idealized kernel's result buffer ends at the three-layer network over the normalisation that MULTIPLIES the
  in-neighbour sum by the reciprocal of the clamped in-degree; the idealized reference's result is the same network over
  the normalisation that DIVIDES the sum by the clamped in-degree. The two programs spell the in-neighbour sum, the
  in-degree and the slices of the stacked parameters with the same operations of the argument arrays, so those are the
  same terms; and the two normalisations are one function, because a degree clamped below by 1 is not zero
  (Sage.meanMul_eq_meanDiv). Hence the networks are equal.
-/
import proofs.«127879_j87591563034885_1_alg».proof.Proof.KFold
import proofs.«127879_j87591563034885_1_alg».proof.Proof.RefLayers

noncomputable section

namespace Cert.Bridge

open Idealize.ShloMosaic Cert.KernelIdeal.KValue

variable (x : Feat Ideal) (e : (⟨Cert.KernelIdeal.S2x1600000, .i32⟩ : BufTy).Contents (Elt Ideal))
  (wl wr : (⟨Cert.KernelIdeal.S3x128x128, .f32⟩ : BufTy).Contents (Elt Ideal))
  (b : (⟨Cert.KernelIdeal.S3x128, .f32⟩ : BufTy).Contents (Elt Ideal))

/-- The in-neighbour sum and the in-degree are spelt with the same operations in both programs. -/
theorem neighbourSum_eq (h : Feat Ideal) :
    neighbourSum (srcIdx e) (dstIdx e) h = Cert.ReferenceIdeal.RefValue.agg e h := rfl
theorem degree_eq : degree (dstIdx e) = Cert.ReferenceIdeal.Read.val_main_v23 (F := Ideal) e := rfl

/-- The multiplying normalisation over the kernel's terms is the dividing one over the reference's. -/
theorem mean_eq :
    (fun h : Feat Ideal => Sage.meanMul (n := 100000) (d := 128) (neighbourSum (srcIdx e) (dstIdx e) h) (degree (dstIdx e)))
      = fun h => Sage.meanDiv (n := 100000) (d := 128) (Cert.ReferenceIdeal.RefValue.agg e h)
          (Cert.ReferenceIdeal.Read.val_main_v23 (F := Ideal) e) :=
  funext fun h => Sage.meanMul_eq_meanDiv _ _

/-- The kernel's network is the reference's. -/
theorem net_eq :
    Sage.net (n := 100000) (d := 128)
        (fun h : Feat Ideal => Sage.meanMul (n := 100000) (d := 128) (neighbourSum (srcIdx e) (dstIdx e) h) (degree (dstIdx e))) x
        (slab0 wl) (row0 b) (slab0 wr) (slab1 wl) (row1 b) (slab1 wr) (slab2 wl) (row2 b) (slab2 wr)
      = Sage.net (n := 100000) (d := 128)
        (fun h => Sage.meanDiv (n := 100000) (d := 128) (Cert.ReferenceIdeal.RefValue.agg e h)
          (Cert.ReferenceIdeal.Read.val_main_v23 (F := Ideal) e)) x
        (Cert.ReferenceIdeal.Read.val_main_v5 (F := Ideal) wl) (Cert.ReferenceIdeal.Read.val_main_v7 (F := Ideal) b)
        (Cert.ReferenceIdeal.Read.val_main_v9 (F := Ideal) wr)
        (Cert.ReferenceIdeal.Read.val_main_v38 (F := Ideal) wl) (Cert.ReferenceIdeal.Read.val_main_v40 (F := Ideal) b)
        (Cert.ReferenceIdeal.Read.val_main_v42 (F := Ideal) wr)
        (Cert.ReferenceIdeal.Read.val_main_v71 (F := Ideal) wl) (Cert.ReferenceIdeal.Read.val_main_v73 (F := Ideal) b)
        (Cert.ReferenceIdeal.Read.val_main_v75 (F := Ideal) wr) := by
  rw [mean_eq]; rfl

end Cert.Bridge

end
-- ==== Proof.lean ====
/-
  Three residual mean-aggregation graph layers as a tiled kernel, against their plain array-program reference: the
  proof of the certificate's five claims.

  Both programs compute, for node features x, an edge list, and per layer two weight matrices and a bias row,

      h ↦ act( ( ( mean(h)·W_l + b ) + h·W_r ) + h ),      three times, act = max(·, 0) on the first two layers,

  where mean(h) is the per-node sum of the in-neighbours' rows of h (a gather along the edges' sources and a
  scatter-add along their destinations) normalised by the in-degree clamped below by 1. The kernel computes the dense
  part of each layer in a grid launch over row blocks of 5000 nodes, with the gather, the scatter-add and the
  normalisation on the host between launches; the reference is host operations only.

  The three frame claims are the generated frame certificates (the reference's is its generated run with the result
  dropped). The idealization rewrote nothing, so the claim that it is sanctioned is trivial. For the algebraic claim:
  each launch leaves its output array at the layer function of the arrays it read (its twenty blocks cover the array, and
  block t holds the layer's rows 5000·t … 5000·t + 4999, a bf16 truncation being the identity and a matrix product
  into zero a plain sum on the extended reals); the host stretches hand each launch the normalised in-neighbour sum of
  the previous output; so the kernel's result is the three-layer network over the normalisation that multiplies by the
  reciprocal 1 / max(deg, 1). The reference's result, read one operation at a time, is the same network over the
  normalisation that divides by max(deg, 1). A degree clamped below by 1 is not zero, so on the extended reals the two
  normalisations agree on every value, infinite ones included: no finiteness of the inputs is used.
-/
import proofs.«127879_j87591563034885_1_alg».proof.Defs
import proofs.«127879_j87591563034885_1_alg».proof.Proof.Gen.Kernel
import proofs.«127879_j87591563034885_1_alg».proof.Proof.Gen.Kernel.Skeleton
import proofs.«127879_j87591563034885_1_alg».proof.Proof.Gen.Kernel.Launch
import proofs.«127879_j87591563034885_1_alg».proof.Proof.Gen.Kernel.Points
import proofs.«127879_j87591563034885_1_alg».proof.Proof.Gen.Kernel.Frame
import proofs.«127879_j87591563034885_1_alg».proof.Proof.Gen.KernelIdeal
import proofs.«127879_j87591563034885_1_alg».proof.Proof.Gen.KernelIdeal.Skeleton
import proofs.«127879_j87591563034885_1_alg».proof.Proof.Gen.KernelIdeal.Launch
import proofs.«127879_j87591563034885_1_alg».proof.Proof.Gen.KernelIdeal.Points
import proofs.«127879_j87591563034885_1_alg».proof.Proof.Gen.KernelIdeal.Frame
import proofs.«127879_j87591563034885_1_alg».proof.Proof.Gen.ReferenceIdeal
import proofs.«127879_j87591563034885_1_alg».proof.Proof.Gen.ReferenceIdeal.Run
import proofs.«127879_j87591563034885_1_alg».proof.Proof.Gen.ReferenceIdeal.Read
import proofs.«127879_j87591563034885_1_alg».proof.Proof.Gen.Pre_finite_inputs
import proofs.«127879_j87591563034885_1_alg».proof.Proof.KRun
import proofs.«127879_j87591563034885_1_alg».proof.Proof.KRegion0
import proofs.«127879_j87591563034885_1_alg».proof.Proof.KRegion1
import proofs.«127879_j87591563034885_1_alg».proof.Proof.KRegion2
import proofs.«127879_j87591563034885_1_alg».proof.Proof.KFold
import proofs.«127879_j87591563034885_1_alg».proof.Proof.RefLayers
import proofs.«127879_j87591563034885_1_alg».proof.Proof.Join
import Idealize.ShloMosaic.Adequacy
import Idealize.ShloMosaic.Init

noncomputable section

namespace Cert.Proof

open Idealize.ShloMosaic Idealize.SL.Sem Cert.KernelIdeal.KValue

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the extended reals the kernel's result array ends at the three-layer network of the argument arrays (the run
    with the result named, the fold through the segments, each launch's array from its blocks) and the reference's at
    the same network in the dividing arrangement (its generated run read one operation at a time) of arguments that
    agree: one function. -/
theorem algebraic : Cert.algebraic_KernelIdeal_ReferenceIdeal := by
  intro m ρ m' ρ' _ hagree
  refine ⟨_, (θ_run Cert.KernelIdeal.defs _ _).mono
    (fun r h c => ⟨(h c).1.trans (result m ρ c region0_array region1_array region2_array), (h c).2⟩)
    (run_result (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v101_eq, Cert.ReferenceIdeal.RefValue.result,
    (hagree c).1, (hagree c).2.1, (hagree c).2.2.1, (hagree c).2.2.2.1, (hagree c).2.2.2.2]
  exact (Cert.Bridge.net_eq _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
